-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x8x128 : Shape := ⟨3, ![65536, 8, 128]⟩
abbrev S65536x8x16 : Shape := ⟨3, ![65536, 8, 16]⟩
abbrev S144x64 : Shape := ⟨2, ![144, 64]⟩
abbrev S64 : Shape := ⟨1, ![64]⟩
abbrev S64x64 : Shape := ⟨2, ![64, 64]⟩
abbrev S64x192 : Shape := ⟨2, ![64, 192]⟩
abbrev S192 : Shape := ⟨1, ![192]⟩
abbrev S64x1 : Shape := ⟨2, ![64, 1]⟩
abbrev S1 : Shape := ⟨1, ![1]⟩
abbrev S_ : Shape := ⟨0, ![]⟩

class Facts : Prop where
  bcast_S_S65536x8x128 : S_.BroadcastsInDim S65536x8x128 (![] : Fin 0 → Fin S65536x8x128.rank)
  reducesTo_S65536x8x128_S_d0_1_2 : S65536x8x128.ReducesTo [0, 1, 2] S_
  h_S_ : 0 < S_.numel
  bcast_S_S65536x8x16 : S_.BroadcastsInDim S65536x8x16 (![] : Fin 0 → Fin S65536x8x16.rank)
  reducesTo_S65536x8x16_S_d0_1_2 : S65536x8x16.ReducesTo [0, 1, 2] S_
  bcast_S_S144x64 : S_.BroadcastsInDim S144x64 (![] : Fin 0 → Fin S144x64.rank)
  reducesTo_S144x64_S_d0_1 : S144x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x192 : S_.BroadcastsInDim S64x192 (![] : Fin 0 → Fin S64x192.rank)
  reducesTo_S64x192_S_d0_1 : S64x192.ReducesTo [0, 1] S_
  bcast_S_S192 : S_.BroadcastsInDim S192 (![] : Fin 0 → Fin S192.rank)
  reducesTo_S192_S_d0 : S192.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S192 .f32) (main_arg8 : FVec F S64x192 .f32) (main_arg9 : FVec F S192 .f32) (main_arg10 : FVec F S64x1 .f32) (main_arg11 : FVec F S1 .f32) (main_v33 : IVec S_ 1) : IVec S_ 1 :=
  let main_v34 : FVec F S192 .f32 := Host.absf main_arg7
  let main_cst_12 : FVec F S_ .f32 := constant S_ .f32 0x7F800000#32
  let main_v35 : FVec F S192 .f32 := broadcastInDim S192 ![] bcast_S_S192 main_cst_12
  let main_v36 : IVec S192 1 := cmpf .olt main_v34 main_v35
  let main_c_13 : IVec S_ 1 := constantI S_ 1 1#1
  let main_v37 : IVec S_ 1 := (fun x v => Host.reduce IntOp.andi x v reducesTo_S192_S_d0 h_S_) main_v36 main_c_13
  let main_v38 : IVec S_ 1 := andi main_v33 main_v37
  let main_v39 : FVec F S64x192 .f32 := Host.absf main_arg8
  let main_cst_14 : FVec F S_ .f32 := constant S_ .f32 0x7F800000#32
  let main_v40 : FVec F S64x192 .f32 := broadcastInDim S64x192 ![] bcast_S_S64x192 main_cst_14
  let main_v41 : IVec S64x192 1 := cmpf .olt main_v39 main_v40
  let main_c_15 : IVec S_ 1 := constantI S_ 1 1#1
  let main_v42 : IVec S_ 1 := (fun x v => Host.reduce IntOp.andi x v reducesTo_S64x192_S_d0_1 h_S_) main_v41 main_c_15
  let main_v43 : IVec S_ 1 := andi main_v38 main_v42
  let main_v44 : FVec F S192 .f32 := Host.absf main_arg9
  let main_cst_16 : FVec F S_ .f32 := constant S_ .f32 0x7F800000#32
  let main_v45 : FVec F S192 .f32 := broadcastInDim S192 ![] bcast_S_S192 main_cst_16
  let main_v46 : IVec S192 1 := cmpf .olt main_v44 main_v45
  let main_c_17 : IVec S_ 1 := constantI S_ 1 1#1
  let main_v47 : IVec S_ 1 := (fun x v => Host.reduce IntOp.andi x v reducesTo_S192_S_d0 h_S_) main_v46 main_c_17
  let main_v48 : IVec S_ 1 := andi main_v43 main_v47
  let main_v49 : FVec F S64x1 .f32 := Host.absf main_arg10
  let main_cst_18 : FVec F S_ .f32 := constant S_ .f32 0x7F800000#32
  let main_v50 : FVec F S64x1 .f32 := broadcastInDim S64x1 ![] bcast_S_S64x1 main_cst_18
  fn_part3 (F := F) main_arg11 main_v48 main_v49 main_v50

def fn_part1 {F : FTy → Type} [FloatOps F] (main_arg4 : FVec F S64x64 .f32) (main_arg5 : FVec F S64 .f32) (main_arg6 : FVec F S64x192 .f32) (main_arg7 : FVec F S192 .f32) (main_arg8 : FVec F S64x192 .f32) (main_arg9 : FVec F S192 .f32) (main_arg10 : FVec F S64x1 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x192 .f32 := Host.absf main_arg6
  let main_cst_10 : FVec F S_ .f32 := constant S_ .f32 0x7F800000#32
  let main_v30 : FVec F S64x192 .f32 := broadcastInDim S64x192 ![] bcast_S_S64x192 main_cst_10
  let main_v31 : IVec S64x192 1 := cmpf .olt main_v29 main_v30
  let main_c_11 : IVec S_ 1 := constantI S_ 1 1#1
  let main_v32 : IVec S_ 1 := (fun x v => Host.reduce IntOp.andi x v reducesTo_S64x192_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S65536x8x128 .f32) (main_arg1 : FVec F S65536x8x16 .f32) (main_arg2 : FVec F S144x64 .f32) (main_arg3 : FVec F S64 .f32) (main_arg4 : FVec F S64x64 .f32) (main_arg5 : FVec F S64 .f32) (main_arg6 : FVec F S64x192 .f32) (main_arg7 : FVec F S192 .f32) (main_arg8 : FVec F S64x192 .f32) (main_arg9 : FVec F S192 .f32) (main_arg10 : FVec F S64x1 .f32) (main_arg11 : FVec F S1 .f32) : IVec S_ 1 :=
  let main_v0 : FVec F S65536x8x128 .f32 := Host.absf main_arg0
  let main_cst : FVec F S_ .f32 := constant S_ .f32 0x7F800000#32
  let main_v1 : FVec F S65536x8x128 .f32 := broadcastInDim S65536x8x128 ![] bcast_S_S65536x8x128 main_cst
  let main_v2 : IVec S65536x8x128 1 := cmpf .olt main_v0 main_v1
  let main_c : IVec S_ 1 := constantI S_ 1 1#1
  let main_v3 : IVec S_ 1 := (fun x v => Host.reduce IntOp.andi x v reducesTo_S65536x8x128_S_d0_1_2 h_S_) main_v2 main_c
  let main_v4 : FVec F S65536x8x16 .f32 := Host.absf main_arg1
  let main_cst_0 : FVec F S_ .f32 := constant S_ .f32 0x7F800000#32
  let main_v5 : FVec F S65536x8x16 .f32 := broadcastInDim S65536x8x16 ![] bcast_S_S65536x8x16 main_cst_0
  let main_v6 : IVec S65536x8x16 1 := cmpf .olt main_v4 main_v5
  let main_c_1 : IVec S_ 1 := constantI S_ 1 1#1
  let main_v7 : IVec S_ 1 := (fun x v => Host.reduce IntOp.andi x v reducesTo_S65536x8x16_S_d0_1_2 h_S_) main_v6 main_c_1
  let main_v8 : IVec S_ 1 := andi main_v3 main_v7
  let main_v9 : FVec F S144x64 .f32 := Host.absf main_arg2
  let main_cst_2 : FVec F S_ .f32 := constant S_ .f32 0x7F800000#32
  let main_v10 : FVec F S144x64 .f32 := broadcastInDim S144x64 ![] bcast_S_S144x64 main_cst_2
  let main_v11 : IVec S144x64 1 := cmpf .olt main_v9 main_v10
  let main_c_3 : IVec S_ 1 := constantI S_ 1 1#1
  let main_v12 : IVec S_ 1 := (fun x v => Host.reduce IntOp.andi x v reducesTo_S144x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_v13 main_v16
-- ==== Kernel.lean ====
abbrev S65536x8x128 : Shape := ⟨3, ![65536, 8, 128]⟩
abbrev S65536x8x16 : Shape := ⟨3, ![65536, 8, 16]⟩
abbrev S144x64 : Shape := ⟨2, ![144, 64]⟩
abbrev S64 : Shape := ⟨1, ![64]⟩
abbrev S64x64 : Shape := ⟨2, ![64, 64]⟩
abbrev S64x192 : Shape := ⟨2, ![64, 192]⟩
abbrev S192 : Shape := ⟨1, ![192]⟩
abbrev S64x1 : Shape := ⟨2, ![64, 1]⟩
abbrev S1 : Shape := ⟨1, ![1]⟩
abbrev S128x64 : Shape := ⟨2, ![128, 64]⟩
abbrev S16x64 : Shape := ⟨2, ![16, 64]⟩
abbrev S65536x8x1 : Shape := ⟨3, ![65536, 8, 1]⟩
abbrev S256x8x128 : Shape := ⟨3, ![256, 8, 128]⟩
abbrev S256x8x16 : Shape := ⟨3, ![256, 8, 16]⟩
abbrev S256x8x1 : Shape := ⟨3, ![256, 8, 1]⟩
abbrev S2048x128 : Shape := ⟨2, ![2048, 128]⟩
abbrev S2048x16 : Shape := ⟨2, ![2048, 16]⟩
abbrev S2048x64 : Shape := ⟨2, ![2048, 64]⟩
abbrev S1x64 : Shape := ⟨2, ![1, 64]⟩
abbrev S2048x192 : Shape := ⟨2, ![2048, 192]⟩
abbrev S1x192 : Shape := ⟨2, ![1, 192]⟩
abbrev S256x8x64 : Shape := ⟨3, ![256, 8, 64]⟩
abbrev S256x64 : Shape := ⟨2, ![256, 64]⟩
abbrev S256x1x64 : Shape := ⟨3, ![256, 1, 64]⟩
abbrev S2048x1 : Shape := ⟨2, ![2048, 1]⟩
abbrev S1x1 : Shape := ⟨2, ![1, 1]⟩

abbrev nBuf : Space → Nat
  | .hbm => 15
  | .vmem => 17
  | .smem => 0
  | _ => 0

abbrev bufTy : (tb : Table) → Fin (tcTables nBuf tb) → BufTy
  | .hbm, ⟨0, _⟩ => ⟨S65536x8x128, .f32⟩
  | .hbm, ⟨1, _⟩ => ⟨S65536x8x16, .f32⟩
  | .hbm, ⟨2, _⟩ => ⟨S144x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x192, .f32⟩
  | .hbm, ⟨7, _⟩ => ⟨S192, .f32⟩
  | .hbm, ⟨8, _⟩ => ⟨S64x192, .f32⟩
  | .hbm, ⟨9, _⟩ => ⟨S192, .f32⟩
  | .hbm, ⟨10, _⟩ => ⟨S64x1, .f32⟩
  | .hbm, ⟨11, _⟩ => ⟨S1, .f32⟩
  | .hbm, ⟨12, _⟩ => ⟨S128x64, .f32⟩
  | .hbm, ⟨13, _⟩ => ⟨S16x64, .f32⟩
  | .hbm, ⟨14, _⟩ => ⟨S65536x8x1, .f32⟩
  | .local _ .vmem, ⟨0, _⟩ => ⟨S256x8x128, .f32⟩
  | .local _ .vmem, ⟨1, _⟩ => ⟨S256x8x128, .f32⟩
  | .local _ .vmem, ⟨2, _⟩ => ⟨S256x8x16, .f32⟩
  | .local _ .vmem, ⟨3, _⟩ => ⟨S256x8x16, .f32⟩
  | .local _ .vmem, ⟨4, _⟩ => ⟨S128x64, .f32⟩
  | .local _ .vmem, ⟨5, _⟩ => ⟨S16x64, .f32⟩
  | .local _ .vmem, ⟨6, _⟩ => ⟨S64, .f32⟩
  | .local _ .vmem, ⟨7, _⟩ => ⟨S64x64, .f32⟩
  | .local _ .vmem, ⟨8, _⟩ => ⟨S64, .f32⟩
  | .local _ .vmem, ⟨9, _⟩ => ⟨S64x192, .f32⟩
  | .local _ .vmem, ⟨10, _⟩ => ⟨S192, .f32⟩
  | .local _ .vmem, ⟨11, _⟩ => ⟨S64x192, .f32⟩
  | .local _ .vmem, ⟨12, _⟩ => ⟨S192, .f32⟩
  | .local _ .vmem, ⟨13, _⟩ => ⟨S64x1, .f32⟩
  | .local _ .vmem, ⟨14, _⟩ => ⟨S1, .f32⟩
  | .local _ .vmem, ⟨15, _⟩ => ⟨S256x8x1, .f32⟩
  | .local _ .vmem, ⟨16, _⟩ => ⟨S256x8x1, .f32⟩
  | _, _ => ⟨S65536x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x8x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S144x64_S128x64_0_0 : S144x64.Slices ![0, 0] S128x64
  slices_S144x64_S16x64_128_0 : S144x64.Slices ![128, 0] S16x64
  inb_S256x8x128_S256x8x128_0_0_0 : ∀ a, (![0, 0, 0] : Fin 3 → Nat) a + S256x8x128.size a ≤ S256x8x128.size a
  h_S256x8x128 : 0 < S256x8x128.numel
  shapeCasts_S256x8x128_S2048x128 : S256x8x128.ShapeCasts S2048x128
  inb_S256x8x16_S256x8x16_0_0_0 : ∀ a, (![0, 0, 0] : Fin 3 → Nat) a + S256x8x16.size a ≤ S256x8x16.size a
  h_S256x8x16 : 0 < S256x8x16.numel
  shapeCasts_S256x8x16_S2048x16 : S256x8x16.ShapeCasts S2048x16
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S64_S64_0 : ∀ a, (![0] : Fin 1 → Nat) a + S64.size a ≤ S64.size a
  h_S64 : 0 < S64.numel
  bitsLt_bf16_f32 : FTy.bits .bf16 < FTy.bits .f32
  shapeCasts_S64_S1x64 : S64.ShapeCasts S1x64
  broadcasts_S1x64_S2048x64 : S1x64.Broadcasts S2048x64
  inb_S64x64_S64x64_0_0 : ∀ a, (![0, 0] : Fin 2 → Nat) a + S64x64.size a ≤ S64x64.size a
  h_S64x64 : 0 < S64x64.numel
  inb_S64x192_S64x192_0_0 : ∀ a, (![0, 0] : Fin 2 → Nat) a + S64x192.size a ≤ S64x192.size a
  h_S64x192 : 0 < S64x192.numel
  inb_S192_S192_0 : ∀ a, (![0] : Fin 1 → Nat) a + S192.size a ≤ S192.size a
  h_S192 : 0 < S192.numel
  shapeCasts_S192_S1x192 : S192.ShapeCasts S1x192
  broadcasts_S1x192_S2048x192 : S1x192.Broadcasts S2048x192
  slices_S2048x192_o0_0_S2048x64 : S2048x192.Slices ![0, 0] S2048x64
  slices_S2048x192_o0_64_S2048x64 : S2048x192.Slices ![0, 64] S2048x64
  slices_S2048x192_o0_128_S2048x64 : S2048x192.Slices ![0, 128] S2048x64
  shapeCasts_S2048x64_S256x8x64 : S2048x64.ShapeCasts S256x8x64
  reduces_S256x8x64_S256x64 : S256x8x64.Reduces [1] S256x64
  shapeCasts_S256x64_S256x1x64 : S256x64.ShapeCasts S256x1x64
  broadcasts_S256x1x64_S256x8x64 : S256x1x64.Broadcasts S256x8x64
  shapeCasts_S256x8x64_S2048x64 : S256x8x64.ShapeCasts S2048x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  shapeCasts_S2048x1_S256x8x1 : S2048x1.ShapeCasts S256x8x1
  inb_S256x8x1_S256x8x1_0_0_0 : ∀ a, (![0, 0, 0] : Fin 3 → Nat) a + S256x8x1.size a ≤ S256x8x1.size a
  h_S256x8x1 : 0 < S256x8x1.numel
  dot_S2048x128_S128x64_S2048x64_1_0_0_1_n_n_wf : DotDims.WF S2048x128 S128x64 S2048x64 [1] [0] [0] [1] [] []
  dot_S2048x16_S16x64_S2048x64_1_0_0_1_n_n_wf : DotDims.WF S2048x16 S16x64 S2048x64 [1] [0] [0] [1] [] []
  dot_S2048x64_S64x64_S2048x64_1_0_0_1_n_n_wf : DotDims.WF S2048x64 S64x64 S2048x64 [1] [0] [0] [1] [] []
  dot_S2048x64_S64x192_S2048x192_1_0_0_1_n_n_wf : DotDims.WF S2048x64 S64x192 S2048x192 [1] [0] [0] [1] [] []
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8x128.size a ≤ S65536x8x128.size a
  hwx0_0 : ∀ i : grid0.Coords, EltTy.bits .f32 = 32 ∨ (Rect.block (s := S65536x8x128) S256x8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8x16.size a ≤ S65536x8x16.size a
  hwx0_1 : ∀ i : grid0.Coords, EltTy.bits .f32 = 32 ∨ (Rect.block (s := S65536x8x16) S256x8x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x192.size a ≤ S64x192.size a
  hwx0_7 : ∀ i : grid0.Coords, EltTy.bits .f32 = 32 ∨ (Rect.block (s := S64x192) S64x192.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S192.size a ≤ S192.size a
  hwx0_8 : ∀ i : grid0.Coords, EltTy.bits .f32 = 32 ∨ (Rect.block (s := S192) S192.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x192.size a ≤ S64x192.size a
  hwx0_9 : ∀ i : grid0.Coords, EltTy.bits .f32 = 32 ∨ (Rect.block (s := S64x192) S64x192.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S192.size a ≤ S192.size a
  hwx0_10 : ∀ i : grid0.Coords, EltTy.bits .f32 = 32 ∨ (Rect.block (s := S192) S192.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x1.size a ≤ S64x1.size a
  hwx0_11 : ∀ i : grid0.Coords, EltTy.bits .f32 = 32 ∨ (Rect.block (s := S64x1) S64x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1.size a ≤ S1.size a
  hwx0_12 : ∀ i : grid0.Coords, EltTy.bits .f32 = 32 ∨ (Rect.block (s := S1) S1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x8x1.size a ≤ S65536x8x1.size a
  hwx0_13 : ∀ i : grid0.Coords, EltTy.bits .f32 = 32 ∨ (Rect.block (s := S65536x8x1) S256x8x1.size (cc0_transform_13 i) (hinb0_13 i)).WholeWords (EltTy.packing .f32)

variable [Facts₀]

def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x16_S16x64_S2048x64_1_0_0_1_n_n : DotDims S2048x16 S16x64 S2048x64 where
  lhsContracting := [1]
  rhsContracting := [0]
  lhsNonContracting := [0]
  rhsNonContracting := [1]
  lhsBatch := []
  rhsBatch := []
  wf := dot_S2048x16_S16x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x192_S2048x192_1_0_0_1_n_n : DotDims S2048x64 S64x192 S2048x192 where
  lhsContracting := [1]
  rhsContracting := [0]
  lhsNonContracting := [0]
  rhsNonContracting := [1]
  lhsBatch := []
  rhsBatch := []
  wf := dot_S2048x64_S64x192_S2048x192_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_arg0) S256x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64x192.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S192.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S64x192.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S192.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S64x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v2) S256x8x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S65536x8x128 : Shape := ⟨3, ![65536, 8, 128]⟩
abbrev S65536x8x16 : Shape := ⟨3, ![65536, 8, 16]⟩
abbrev S144x64 : Shape := ⟨2, ![144, 64]⟩
abbrev S64 : Shape := ⟨1, ![64]⟩
abbrev S64x64 : Shape := ⟨2, ![64, 64]⟩
abbrev S64x192 : Shape := ⟨2, ![64, 192]⟩
abbrev S192 : Shape := ⟨1, ![192]⟩
abbrev S64x1 : Shape := ⟨2, ![64, 1]⟩
abbrev S1 : Shape := ⟨1, ![1]⟩
abbrev S65536x8x144 : Shape := ⟨3, ![65536, 8, 144]⟩
abbrev S524288x144 : Shape := ⟨2, ![524288, 144]⟩
abbrev S524288x64 : Shape := ⟨2, ![524288, 64]⟩
abbrev S1x64 : Shape := ⟨2, ![1, 64]⟩
abbrev S_ : Shape := ⟨0, ![]⟩
abbrev S524288x192 : Shape := ⟨2, ![524288, 192]⟩
abbrev S1x192 : Shape := ⟨2, ![1, 192]⟩
abbrev S65536x8x64 : Shape := ⟨3, ![65536, 8, 64]⟩
abbrev S65536x64 : Shape := ⟨2, ![65536, 64]⟩
abbrev S65536x1x64 : Shape := ⟨3, ![65536, 1, 64]⟩
abbrev S524288x1 : Shape := ⟨2, ![524288, 1]⟩
abbrev S1x1 : Shape := ⟨2, ![1, 1]⟩
abbrev S65536x8x1 : Shape := ⟨3, ![65536, 8, 1]⟩

abbrev nBuf : Space → Nat
  | .hbm => 124
  | .vmem => 0
  | .smem => 0
  | _ => 0

abbrev bufTy : (tb : Table) → Fin (tcTables nBuf tb) → BufTy
  | .hbm, ⟨0, _⟩ => ⟨S65536x8x128, .f32⟩
  | .hbm, ⟨1, _⟩ => ⟨S65536x8x16, .f32⟩
  | .hbm, ⟨2, _⟩ => ⟨S144x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x192, .f32⟩
  | .hbm, ⟨7, _⟩ => ⟨S192, .f32⟩
  | .hbm, ⟨8, _⟩ => ⟨S64x192, .f32⟩
  | .hbm, ⟨9, _⟩ => ⟨S192, .f32⟩
  | .hbm, ⟨10, _⟩ => ⟨S64x1, .f32⟩
  | .hbm, ⟨11, _⟩ => ⟨S1, .f32⟩
  | .hbm, ⟨12, _⟩ => ⟨S65536x8x144, .f32⟩
  | .hbm, ⟨13, _⟩ => ⟨S524288x144, .f32⟩
  | .hbm, ⟨14, _⟩ => ⟨S524288x64, .f32⟩
  | .hbm, ⟨15, _⟩ => ⟨S1x64, .f32⟩
  | .hbm, ⟨16, _⟩ => ⟨S524288x64, .f32⟩
  | .hbm, ⟨17, _⟩ => ⟨S524288x64, .f32⟩
  | .hbm, ⟨18, _⟩ => ⟨S_, .f32⟩
  | .hbm, ⟨19, _⟩ => ⟨S524288x64, .f32⟩
  | .hbm, ⟨20, _⟩ => ⟨S524288x64, .f32⟩
  | .hbm, ⟨21, _⟩ => ⟨S524288x64, .f32⟩
  | .hbm, ⟨22, _⟩ => ⟨S1x64, .f32⟩
  | .hbm, ⟨23, _⟩ => ⟨S524288x64, .f32⟩
  | .hbm, ⟨24, _⟩ => ⟨S524288x64, .f32⟩
  | .hbm, ⟨25, _⟩ => ⟨S_, .f32⟩
  | .hbm, ⟨26, _⟩ => ⟨S524288x64, .f32⟩
  | .hbm, ⟨27, _⟩ => ⟨S524288x192, .f32⟩
  | .hbm, ⟨28, _⟩ => ⟨S1x192, .f32⟩
  | .hbm, ⟨29, _⟩ => ⟨S524288x192, .f32⟩
  | .hbm, ⟨30, _⟩ => ⟨S524288x192, .f32⟩
  | .hbm, ⟨31, _⟩ => ⟨S524288x192, .f32⟩
  | .hbm, ⟨32, _⟩ => ⟨S1x192, .f32⟩
  | .hbm, ⟨33, _⟩ => ⟨S524288x192, .f32⟩
  | .hbm, ⟨34, _⟩ => ⟨S524288x192, .f32⟩
  | .hbm, ⟨35, _⟩ => ⟨S524288x64, .f32⟩
  | .hbm, ⟨36, _⟩ => ⟨S524288x64, .f32⟩
  | .hbm, ⟨37, _⟩ => ⟨S524288x64, .f32⟩
  | .hbm, ⟨38, _⟩ => ⟨S524288x64, .f32⟩
  | .hbm, ⟨39, _⟩ => ⟨S524288x64, .f32⟩
  | .hbm, ⟨40, _⟩ => ⟨S524288x64, .f32⟩
  | .hbm, ⟨41, _⟩ => ⟨S524288x64, .f32⟩
  | .hbm, ⟨42, _⟩ => ⟨S524288x64, .f32⟩
  | .hbm, ⟨43, _⟩ => ⟨S524288x64, .f32⟩
  | .hbm, ⟨44, _⟩ => ⟨S_, .f32⟩
  | .hbm, ⟨45, _⟩ => ⟨S524288x64, .f32⟩
  | .hbm, ⟨46, _⟩ => ⟨S524288x64, .f32⟩
  | .hbm, ⟨47, _⟩ => ⟨S_, .f32⟩
  | .hbm, ⟨48, _⟩ => ⟨S524288x64, .f32⟩
  | .hbm, ⟨49, _⟩ => ⟨S524288x64, .f32⟩
  | .hbm, ⟨50, _⟩ => ⟨S524288x64, .f32⟩
  | .hbm, ⟨51, _⟩ => ⟨S524288x64, .f32⟩
  | .hbm, ⟨52, _⟩ => ⟨S524288x64, .f32⟩
  | .hbm, ⟨53, _⟩ => ⟨S_, .f32⟩
  | .hbm, ⟨54, _⟩ => ⟨S524288x64, .f32⟩
  | .hbm, ⟨55, _⟩ => ⟨S524288x64, .f32⟩
  | .hbm, ⟨56, _⟩ => ⟨S_, .f32⟩
  | .hbm, ⟨57, _⟩ => ⟨S524288x64, .f32⟩
  | .hbm, ⟨58, _⟩ => ⟨S524288x64, .f32⟩
  | .hbm, ⟨59, _⟩ => ⟨S524288x64, .f32⟩
  | .hbm, ⟨60, _⟩ => ⟨S524288x64, .f32⟩
  | .hbm, ⟨61, _⟩ => ⟨S524288x64, .f32⟩
  | .hbm, ⟨62, _⟩ => ⟨S_, .f32⟩
  | .hbm, ⟨63, _⟩ => ⟨S524288x64, .f32⟩
  | .hbm, ⟨64, _⟩ => ⟨S524288x64, .f32⟩
  | .hbm, ⟨65, _⟩ => ⟨S524288x64, .f32⟩
  | .hbm, ⟨66, _⟩ => ⟨S524288x64, .f32⟩
  | .hbm, ⟨67, _⟩ => ⟨S524288x64, .f32⟩
  | .hbm, ⟨68, _⟩ => ⟨S65536x8x64, .f32⟩
  | .hbm, ⟨69, _⟩ => ⟨S_, .f32⟩
  | .hbm, ⟨70, _⟩ => ⟨S65536x64, .f32⟩
  | .hbm, ⟨71, _⟩ => ⟨S65536x1x64, .f32⟩
  | .hbm, ⟨72, _⟩ => ⟨S65536x8x64, .f32⟩
  | .hbm, ⟨73, _⟩ => ⟨S65536x8x64, .f32⟩
  | .hbm, ⟨74, _⟩ => ⟨S_, .f32⟩
  | .hbm, ⟨75, _⟩ => ⟨S65536x8x64, .f32⟩
  | .hbm, ⟨76, _⟩ => ⟨S65536x8x64, .f32⟩
  | .hbm, ⟨77, _⟩ => ⟨S524288x64, .f32⟩
  | .hbm, ⟨78, _⟩ => ⟨S524288x192, .f32⟩
  | .hbm, ⟨79, _⟩ => ⟨S1x192, .f32⟩
  | .hbm, ⟨80, _⟩ => ⟨S524288x192, .f32⟩
  | .hbm, ⟨81, _⟩ => ⟨S524288x192, .f32⟩
  | .hbm, ⟨82, _⟩ => ⟨S524288x192, .f32⟩
  | .hbm, ⟨83, _⟩ => ⟨S1x192, .f32⟩
  | .hbm, ⟨84, _⟩ => ⟨S524288x192, .f32⟩
  | .hbm, ⟨85, _⟩ => ⟨S524288x192, .f32⟩
  | .hbm, ⟨86, _⟩ => ⟨S524288x64, .f32⟩
  | .hbm, ⟨87, _⟩ => ⟨S524288x64, .f32⟩
  | .hbm, ⟨88, _⟩ => ⟨S524288x64, .f32⟩
  | .hbm, ⟨89, _⟩ => ⟨S524288x64, .f32⟩
  | .hbm, ⟨90, _⟩ => ⟨S524288x64, .f32⟩
  | .hbm, ⟨91, _⟩ => ⟨S524288x64, .f32⟩
  | .hbm, ⟨92, _⟩ => ⟨S524288x64, .f32⟩
  | .hbm, ⟨93, _⟩ => ⟨S524288x64, .f32⟩
  | .hbm, ⟨94, _⟩ => ⟨S524288x64, .f32⟩
  | .hbm, ⟨95, _⟩ => ⟨S_, .f32⟩
  | .hbm, ⟨96, _⟩ => ⟨S524288x64, .f32⟩
  | .hbm, ⟨97, _⟩ => ⟨S524288x64, .f32⟩
  | .hbm, ⟨98, _⟩ => ⟨S_, .f32⟩
  | .hbm, ⟨99, _⟩ => ⟨S524288x64, .f32⟩
  | .hbm, ⟨100, _⟩ => ⟨S524288x64, .f32⟩
  | .hbm, ⟨101, _⟩ => ⟨S524288x64, .f32⟩
  | .hbm, ⟨102, _⟩ => ⟨S524288x64, .f32⟩
  | .hbm, ⟨103, _⟩ => ⟨S524288x64, .f32⟩
  | .hbm, ⟨104, _⟩ => ⟨S_, .f32⟩
  | .hbm, ⟨105, _⟩ => ⟨S524288x64, .f32⟩
  | .hbm, ⟨106, _⟩ => ⟨S524288x64, .f32⟩
  | .hbm, ⟨107, _⟩ => ⟨S_, .f32⟩
  | .hbm, ⟨108, _⟩ => ⟨S524288x64, .f32⟩
  | .hbm, ⟨109, _⟩ => ⟨S524288x64, .f32⟩
  | .hbm, ⟨110, _⟩ => ⟨S524288x64, .f32⟩
  | .hbm, ⟨111, _⟩ => ⟨S524288x64, .f32⟩
  | .hbm, ⟨112, _⟩ => ⟨S524288x64, .f32⟩
  | .hbm, ⟨113, _⟩ => ⟨S_, .f32⟩
  | .hbm, ⟨114, _⟩ => ⟨S524288x64, .f32⟩
  | .hbm, ⟨115, _⟩ => ⟨S524288x64, .f32⟩
  | .hbm, ⟨116, _⟩ => ⟨S524288x64, .f32⟩
  | .hbm, ⟨117, _⟩ => ⟨S524288x64, .f32⟩
  | .hbm, ⟨118, _⟩ => ⟨S524288x64, .f32⟩
  | .hbm, ⟨119, _⟩ => ⟨S524288x1, .f32⟩
  | .hbm, ⟨120, _⟩ => ⟨S1x1, .f32⟩
  | .hbm, ⟨121, _⟩ => ⟨S524288x1, .f32⟩
  | .hbm, ⟨122, _⟩ => ⟨S524288x1, .f32⟩
  | .hbm, ⟨123, _⟩ => ⟨S65536x8x1, .f32⟩
  | _, _ => ⟨S65536x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call0_cst : Ref sig .tc := ⟨.hbm, 18, rfl⟩
abbrev main_call0_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_0 : Ref sig .tc := ⟨.hbm, 44, rfl⟩
abbrev main_v29 : Ref sig .tc := ⟨.hbm, 45, rfl⟩
abbrev main_v30 : Ref sig .tc := ⟨.hbm, 46, rfl⟩
abbrev main_cst_1 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_2 : Ref sig .tc := ⟨.hbm, 53, rfl⟩
abbrev main_v36 : Ref sig .tc := ⟨.hbm, 54, rfl⟩
abbrev main_v37 : Ref sig .tc := ⟨.hbm, 55, rfl⟩
abbrev main_cst_3 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_4 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_5 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_6 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_7 : Ref sig .tc := ⟨.hbm, 95, rfl⟩
abbrev main_v73 : Ref sig .tc := ⟨.hbm, 96, rfl⟩
abbrev main_v74 : Ref sig .tc := ⟨.hbm, 97, rfl⟩
abbrev main_cst_8 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_9 : Ref sig .tc := ⟨.hbm, 104, rfl⟩
abbrev main_v80 : Ref sig .tc := ⟨.hbm, 105, rfl⟩
abbrev main_v81 : Ref sig .tc := ⟨.hbm, 106, rfl⟩
abbrev main_cst_10 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_11 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩

abbrev nD : Nat := 1
abbrev τ : Topo := Topo.v7x

variable {F : FTy → Type} [FloatOps F]

class Facts₀ : Prop where
  concatenates_S65536x8x128_S65536x8x16_S65536x8x144_d2 : Shape.Concatenates [S65536x8x128, S65536x8x16] S65536x8x144 2
  shapeCasts_S65536x8x144_S524288x144 : S65536x8x144.ShapeCasts S524288x144
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  bcast_S_S524288x64 : S_.BroadcastsInDim S524288x64 (![] : Fin 0 → Fin S524288x64.rank)
  bcast_S192_S1x192_1 : S192.BroadcastsInDim S1x192 (![1] : Fin 1 → Fin S1x192.rank)
  bcast_S1x192_S524288x192_0_1 : S1x192.BroadcastsInDim S524288x192 (![0, 1] : Fin 2 → Fin S524288x192.rank)
  slices_S524288x192_S524288x64_0_0 : S524288x192.Slices ![0, 0] S524288x64
  slices_S524288x192_S524288x64_0_64 : S524288x192.Slices ![0, 64] S524288x64
  slices_S524288x192_S524288x64_0_128 : S524288x192.Slices ![0, 128] S524288x64
  shapeCasts_S524288x64_S65536x8x64 : S524288x64.ShapeCasts S65536x8x64
  reducesTo_S65536x8x64_S65536x64_d1 : S65536x8x64.ReducesTo [1] S65536x64
  h_S_ : 0 < S_.numel
  bcast_S65536x64_S65536x1x64_0_2 : S65536x64.BroadcastsInDim S65536x1x64 (![0, 2] : Fin 2 → Fin S65536x1x64.rank)
  bcast_S65536x1x64_S65536x8x64_0_1_2 : S65536x1x64.BroadcastsInDim S65536x8x64 (![0, 1, 2] : Fin 3 → Fin S65536x8x64.rank)
  bcast_S_S65536x8x64 : S_.BroadcastsInDim S65536x8x64 (![] : Fin 0 → Fin S65536x8x64.rank)
  shapeCasts_S65536x8x64_S524288x64 : S65536x8x64.ShapeCasts S524288x64
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  shapeCasts_S524288x1_S65536x8x1 : S524288x1.ShapeCasts S65536x8x1
  dot_S524288x144_S144x64_S524288x64_1_0_0_1_n_n_wf : DotDims.WF S524288x144 S144x64 S524288x64 [1] [0] [0] [1] [] []
  dot_S524288x64_S64x64_S524288x64_1_0_0_1_n_n_wf : DotDims.WF S524288x64 S64x64 S524288x64 [1] [0] [0] [1] [] []
  dot_S524288x64_S64x192_S524288x192_1_0_0_1_n_n_wf : DotDims.WF S524288x64 S64x192 S524288x192 [1] [0] [0] [1] [] []
  dot_S524288x64_S64x1_S524288x1_1_0_0_1_n_n_wf : DotDims.WF S524288x64 S64x1 S524288x1 [1] [0] [0] [1] [] []

variable [Facts₀]

def dot_S524288x144_S144x64_S524288x64_1_0_0_1_n_n : DotDims S524288x144 S144x64 S524288x64 where
  lhsContracting := [1]
  rhsContracting := [0]
  lhsNonContracting := [0]
  rhsNonContracting := [1]
  lhsBatch := []
  rhsBatch := []
  wf := dot_S524288x144_S144x64_S524288x64_1_0_0_1_n_n_wf
def dot_S524288x64_S64x64_S524288x64_1_0_0_1_n_n : DotDims S524288x64 S64x64 S524288x64 where
  lhsContracting := [1]
  rhsContracting := [0]
  lhsNonContracting := [0]
  rhsNonContracting := [1]
  lhsBatch := []
  rhsBatch := []
  wf := dot_S524288x64_S64x64_S524288x64_1_0_0_1_n_n_wf
def dot_S524288x64_S64x192_S524288x192_1_0_0_1_n_n : DotDims S524288x64 S64x192 S524288x192 where
  lhsContracting := [1]
  rhsContracting := [0]
  lhsNonContracting := [0]
  rhsNonContracting := [1]
  lhsBatch := []
  rhsBatch := []
  wf := dot_S524288x64_S64x192_S524288x192_1_0_0_1_n_n_wf
def dot_S524288x64_S64x1_S524288x1_1_0_0_1_n_n : DotDims S524288x64 S64x1 S524288x1 where
  lhsContracting := [1]
  rhsContracting := [0]
  lhsNonContracting := [0]
  rhsNonContracting := [1]
  lhsBatch := []
  rhsBatch := []
  wf := dot_S524288x64_S64x1_S524288x1_1_0_0_1_n_n_wf

class Facts : Prop extends Facts₀ where

variable [Facts]
-- ==== Proof.Spec.lean ====
/-
  The multi-agent critic as ONE function of its inputs, on the extended reals.

  A batch holds 8 agents. Agent a's input row is its 128 observation features followed by its 16 action
  features (144 numbers). Per agent:
    e  = max (x·W_enc + b_enc) 0                     (encoder, 64 wide)
    h0 = e·W_obs + b_obs
    h1 = GRU(0, h0)                                  (a GRU cell on a zero context)
  then across the batch's agents
    c_a = ((∑_{a'} h1_{a'}) - h1_a) · (1/8)          (all-but-self mean, divided by the agent count)
    h2_a = GRU(c_a, h1_a)
    value_a = h2_a·W_dec + b_dec.
  The GRU cell with input c and state h: gi = c·Wi + bi, gh = h·Wh + bh (192 wide, three gates of 64),
    r = σ(gi_r + gh_r), z = σ(gi_z + gh_z), n = tanh(gi_n + r·gh_n), result (1 - z)·n + z·h.

  Also here: the three laws that join the two programs' spellings — a sum over 144 split as 128 + 16;
  1 / (1 + exp(-x)) is the sigmoid; a quotient by 8 is the product with 1/8 (on every extended real).
-/
import Idealize.ShloMosaic.PureOps.Ideal
import Idealize.ShloMosaic.PureOps.Ideal.Laws
import Idealize.ShloMosaic.Lib.ValueIdx

noncomputable section

namespace Cert.Critic

open Idealize.ShloMosaic

/-- The float words the two programs spell: 0, 1, 1/8 and 8. -/
abbrev zero : EReal := Ideal.ofBits .f32 0x00000000#32
abbrev one : EReal := Ideal.ofBits .f32 0x3F800000#32
abbrev eighth : EReal := Ideal.ofBits .f32 0x3E000000#32
abbrev eight : EReal := Ideal.ofBits .f32 0x41000000#32

theorem one_eq : one = 1 := by
  simp [one, Ideal.ofBits, Ideal.ieee, -EReal.coe_mul]; norm_num

theorem eight_eq : eight = ((8 : ℝ) : EReal) := by
  simp [eight, Ideal.ofBits, Ideal.ieee, -EReal.coe_mul]; norm_num

theorem eighth_eq : eighth = ((1 / 8 : ℝ) : EReal) := by
  simp [eighth, Ideal.ofBits, Ideal.ieee, -EReal.coe_mul]; norm_num

/-- A quotient by 8 is the product with 1/8, on every extended real. -/
theorem div_eight (x : EReal) : Ideal.div x eight = x * eighth := by
  rw [eight_eq, eighth_eq, Ideal.div_coe (by norm_num : (8 : ℝ) ≠ 0)]

/-- The sigmoid spelled out with the word 1.0: 1 / (1 + exp(-x)). -/
theorem logistic_spelled (x : EReal) : Ideal.div one (one + Ideal.exp (-x)) = Ideal.logistic x := by
  rw [one_eq]; rfl

/-- A dense layer: column j of x·W + b. -/
def dense {K N : ℕ} (x : Fin K → EReal) (W : Fin K → Fin N → EReal) (b : Fin N → EReal) (j : Fin N) : EReal :=
  (∑ k : Fin K, x k * W k j) + b j

/-- 128 numbers followed by 16. -/
def cat {α : Type} (f : Fin 128 → α) (g : Fin 16 → α) : Fin 144 → α :=
  fun k => if h : k.val < 128 then f ⟨k.val, h⟩ else g ⟨k.val - 128, by have := k.isLt; omega⟩

/-- A sum over the 144 joined positions is the sum over the first 128 plus the sum over the last 16. -/
theorem sum_cat (f : Fin 128 → EReal) (g : Fin 16 → EReal) (F : Fin 128 → EReal) (G : Fin 16 → EReal) :
    (∑ k : Fin 128, f k * F k) + (∑ k : Fin 16, g k * G k) = ∑ k : Fin 144, cat f g k * cat F G k := by
  rw [show (∑ k : Fin 144, cat f g k * cat F G k) = ∑ k : Fin (128 + 16), cat f g k * cat F G k from rfl,
    Fin.sum_univ_add]
  refine congrArg₂ (· + ·) (Finset.sum_congr rfl fun k _ => ?_) (Finset.sum_congr rfl fun k _ => ?_)
  · have hk : (Fin.castAdd 16 k).val < 128 := k.isLt
    simp only [cat, dif_pos hk]
    rfl
  · have hk : ¬ (Fin.natAdd 128 k).val < 128 := by rw [Fin.coe_natAdd]; omega
    simp only [cat, dif_neg hk]
    have e : ∀ h, (⟨(Fin.natAdd 128 k).val - 128, h⟩ : Fin 16) = k := fun h =>
      Fin.ext (by show (Fin.natAdd 128 k).val - 128 = k.val; rw [Fin.coe_natAdd]; omega)
    rw [e]

/-- The three gates' columns in a 192-wide row. -/
def colR (j : Fin 64) : Fin 192 := ⟨j.val, by have := j.isLt; omega⟩
def colZ (j : Fin 64) : Fin 192 := ⟨64 + j.val, by have := j.isLt; omega⟩
def colN (j : Fin 64) : Fin 192 := ⟨128 + j.val, by have := j.isLt; omega⟩

/-- The network's parameters as plain functions. -/
structure Params where
  Wenc : Fin 144 → Fin 64 → EReal
  benc : Fin 64 → EReal
  Wobs : Fin 64 → Fin 64 → EReal
  bobs : Fin 64 → EReal
  Wi : Fin 64 → Fin 192 → EReal
  bi : Fin 192 → EReal
  Wh : Fin 64 → Fin 192 → EReal
  bh : Fin 192 → EReal
  Wdec : Fin 64 → Fin 1 → EReal
  bdec : Fin 1 → EReal

/-- The encoder's pre-activation. -/
def encLin (P : Params) (x : Fin 144 → EReal) : Fin 64 → EReal := dense x P.Wenc P.benc

/-- Encoder then the observation layer: h0. -/
def hidden0 (P : Params) (x : Fin 144 → EReal) : Fin 64 → EReal :=
  dense (fun k => max (encLin P x k) zero) P.Wobs P.bobs

/-- The GRU cell's result from its two 192-wide gate rows and the state. -/
def gruOut (gi gh : Fin 192 → EReal) (h : Fin 64 → EReal) (j : Fin 64) : EReal :=
  (one - Ideal.logistic (gi (colZ j) + gh (colZ j)))
      * Ideal.tanh (gi (colN j) + Ideal.logistic (gi (colR j) + gh (colR j)) * gh (colN j))
    + Ideal.logistic (gi (colZ j) + gh (colZ j)) * h j

/-- The GRU cell with input c and state h. -/
def gru (P : Params) (c h : Fin 64 → EReal) : Fin 64 → EReal :=
  gruOut (dense c P.Wi P.bi) (dense h P.Wh P.bh) h

/-- h1: the cell on a zero context. -/
def hidden1 (P : Params) (x : Fin 144 → EReal) : Fin 64 → EReal :=
  gru P (fun _ => zero) (hidden0 P x)

/-- The all-but-self mean of the batch's states, divided by the agent count. -/
def context (hs : Fin 8 → Fin 64 → EReal) (a : Fin 8) (j : Fin 64) : EReal :=
  ((∑ a' : Fin 8, hs a' j) - hs a j) * eighth

/-- h2 of agent a in a batch with input rows xs. -/
def hidden2 (P : Params) (xs : Fin 8 → Fin 144 → EReal) (a : Fin 8) : Fin 64 → EReal :=
  gru P (context (fun a' => hidden1 P (xs a')) a) (hidden1 P (xs a))

/-- The critic's value for agent a of a batch. -/
def value (P : Params) (xs : Fin 8 → Fin 144 → EReal) (a : Fin 8) : EReal :=
  dense (hidden2 P xs a) P.Wdec P.bdec 0

/-! ## Arrays read as the plain functions above -/

open ValueIdx

/-- An index is the one built from its coordinates. -/
theorem ix1_of {n : ℕ} (i : (⟨1, ![n]⟩ : Shape).Idx) (a : Fin n) (h : (i 0).val = a.val) : i = ix1 a :=
  funext fun d => Fin.ext (by match d with | ⟨0, _⟩ => exact h)
theorem ix2_of {n0 n1 : ℕ} (i : (⟨2, ![n0, n1]⟩ : Shape).Idx) (a : Fin n0) (b : Fin n1)
    (h0 : (i 0).val = a.val) (h1 : (i 1).val = b.val) : i = ix2 a b :=
  funext fun d => Fin.ext (by match d with | ⟨0, _⟩ => exact h0 | ⟨1, _⟩ => exact h1)

/-- A [K, N] array as a matrix. -/
def mat {K N : ℕ} (W : (⟨2, ![K, N]⟩ : Shape).Idx → EReal) : Fin K → Fin N → EReal := fun k j => W (ix2 k j)

/-- An [N] array as a row. -/
def vec {N : ℕ} (b : (⟨1, ![N]⟩ : Shape).Idx → EReal) : Fin N → EReal := fun j => b (ix1 j)

/-- Agent a of batch b: its observation row followed by its action row. -/
def rows {B : ℕ} (obs : (⟨3, ![B, 8, 128]⟩ : Shape).Idx → EReal) (act : (⟨3, ![B, 8, 16]⟩ : Shape).Idx → EReal)
    (b : Fin B) (a : Fin 8) : Fin 144 → EReal :=
  cat (fun k => obs (ix3 b a k)) (fun k => act (ix3 b a k))

/-- The parameters read off the twelve argument arrays' last ten. -/
def params (Wenc : (⟨2, ![144, 64]⟩ : Shape).Idx → EReal) (benc : (⟨1, ![64]⟩ : Shape).Idx → EReal)
    (Wobs : (⟨2, ![64, 64]⟩ : Shape).Idx → EReal) (bobs : (⟨1, ![64]⟩ : Shape).Idx → EReal)
    (Wi : (⟨2, ![64, 192]⟩ : Shape).Idx → EReal) (bi : (⟨1, ![192]⟩ : Shape).Idx → EReal)
    (Wh : (⟨2, ![64, 192]⟩ : Shape).Idx → EReal) (bh : (⟨1, ![192]⟩ : Shape).Idx → EReal)
    (Wdec : (⟨2, ![64, 1]⟩ : Shape).Idx → EReal) (bdec : (⟨1, ![1]⟩ : Shape).Idx → EReal) : Params :=
  ⟨mat Wenc, vec benc, mat Wobs, vec bobs, mat Wi, vec bi, mat Wh, vec bh, mat Wdec, vec bdec⟩

/-- The whole result array [B, 8, 1]: entry (b, a, 0) is the value of agent a of batch b. -/
def G {B : ℕ} (obs : (⟨3, ![B, 8, 128]⟩ : Shape).Idx → EReal) (act : (⟨3, ![B, 8, 16]⟩ : Shape).Idx → EReal)
    (P : Params) : (⟨3, ![B, 8, 1]⟩ : Shape).Idx → EReal :=
  fun i => value P (rows obs act (i 0)) (i 1)

/-- The value of a batch depends only on that batch's rows: two pairs of input arrays that agree on batch b of the
    one and batch b' of the other give the same value there. -/
theorem value_congr {B B' : ℕ} (obs : (⟨3, ![B, 8, 128]⟩ : Shape).Idx → EReal) (act : (⟨3, ![B, 8, 16]⟩ : Shape).Idx → EReal)
    (obs' : (⟨3, ![B', 8, 128]⟩ : Shape).Idx → EReal) (act' : (⟨3, ![B', 8, 16]⟩ : Shape).Idx → EReal)
    (P P' : Params) (b : Fin B) (b' : Fin B') (a a' : Fin 8) (hP : P = P') (ha : a = a')
    (ho : ∀ (a : Fin 8) (k : Fin 128), obs (ix3 b a k) = obs' (ix3 b' a k))
    (hc : ∀ (a : Fin 8) (k : Fin 16), act (ix3 b a k) = act' (ix3 b' a k)) :
    value P (rows obs act b) a = value P' (rows obs' act' b') a' := by
  subst hP ha
  have e : rows obs act b = rows obs' act' b' := funext fun a => funext fun k => by
    unfold rows cat
    by_cases h : k.val < 128
    · rw [dif_pos h, dif_pos h]; exact ho a _
    · rw [dif_neg h, dif_neg h]; exact hc a _
  rw [e]

end Cert.Critic

end
-- ==== Proof.KernelOps.lean ====
/-
  The kernel body's operations read at an index. One grid point works on 256 batches of 8 agents, flattened to 2048
  rows: row p is agent p % 8 of the block's batch p / 8. A reshape between [256, 8, n] and [2048, n] keeps the row-major
  position; a bias [n] cast to [1, n] and broadcast over the rows reads the bias at the column; a 64-wide slice of a
  192-wide row at offset 0, 64 or 128 is one gate's columns; a sum over the agent axis is a sum over 8 agents; a matrix
  product into a zero accumulator is the sum over the contracted index.
-/
import proofs.«113104_j16681652977907_1_alg».proof.KernelIdeal
import proofs.«113104_j16681652977907_1_alg».proof.Proof.Spec
import Idealize.ShloMosaic.Lib.ValueLayout
import Idealize.ShloMosaic.Lib.Pipeline.Value
import Idealize.ShloMosaic.PureOps.Ideal.Laws

noncomputable section

namespace Cert.Critic.Kern

open Cert.KernelIdeal Idealize.ShloMosaic Idealize.ShloMosaic.ValueIdx Cert.Critic

/-- The block's batch and the agent of a flattened row, and the row of a (batch, agent) pair. -/
def kb (p : Fin 2048) : Fin 256 := ⟨p.val / 8, by have := p.isLt; omega⟩
def ka (p : Fin 2048) : Fin 8 := ⟨p.val % 8, Nat.mod_lt _ (by norm_num)⟩
def row (b : Fin 256) (a : Fin 8) : Fin 2048 := ⟨b.val * 8 + a.val, by have := b.isLt; have := a.isLt; omega⟩

theorem kb_row (b : Fin 256) (a : Fin 8) : kb (row b a) = b :=
  Fin.ext (by show (b.val * 8 + a.val) / 8 = b.val; have := a.isLt; omega)
theorem ka_row (b : Fin 256) (a : Fin 8) : ka (row b a) = a :=
  Fin.ext (by show (b.val * 8 + a.val) % 8 = a.val; have := a.isLt; omega)

/-- Row p of a [2048, n] array as a function of the column. -/
def rowf {n : ℕ} (X : (⟨2, ![2048, n]⟩ : Shape).Idx → EReal) (p : Fin 2048) : Fin n → EReal := fun j => X (ix2 p j)

section layout
variable {α : Type}

/-- [256, 8, n] flattened to [2048, n]: row p, column k is (p / 8, p % 8, k). -/
theorem cast_rows {n : ℕ} (x : (⟨3, ![256, 8, n]⟩ : Shape).Idx → α)
    (h : (⟨3, ![256, 8, n]⟩ : Shape).ShapeCasts ⟨2, ![2048, n]⟩) (i : (⟨2, ![2048, n]⟩ : Shape).Idx) :
    shapeCast ⟨2, ![2048, n]⟩ x h i = x (ix3 (kb (i 0)) (ka (i 0)) (i 1)) :=
  shapeCast_apply x h i _ (by
    rw [Shape.rowMajor_val_three, Shape.rowMajor_val_two]
    show ((i 0).val / 8 * 8 + (i 0).val % 8) * n + (i 1).val = (i 0).val * n + (i 1).val
    rw [Nat.div_add_mod'])

/-- [2048, n] split to [256, 8, n]: (b, a, k) is row 8·b + a, column k. -/
theorem cast_batches {n : ℕ} (x : (⟨2, ![2048, n]⟩ : Shape).Idx → α)
    (h : (⟨2, ![2048, n]⟩ : Shape).ShapeCasts ⟨3, ![256, 8, n]⟩) (i : (⟨3, ![256, 8, n]⟩ : Shape).Idx) :
    shapeCast ⟨3, ![256, 8, n]⟩ x h i = x (ix2 (row (i 0) (i 1)) (i 2)) :=
  shapeCast_apply x h i _ (by
    rw [Shape.rowMajor_val_three, Shape.rowMajor_val_two]
    rfl)

/-- A bias [n] as one row [1, n] repeated over a rows: entry (p, c) is the bias at c. -/
theorem bias_row {a n : ℕ} (b : (⟨1, ![n]⟩ : Shape).Idx → α) (h1 : (⟨1, ![n]⟩ : Shape).ShapeCasts ⟨2, ![1, n]⟩)
    (h2 : (⟨2, ![1, n]⟩ : Shape).Broadcasts ⟨2, ![a, n]⟩) (i : (⟨2, ![a, n]⟩ : Shape).Idx) :
    broadcastTo ⟨2, ![a, n]⟩ (shapeCast ⟨2, ![1, n]⟩ b h1) h2 i = b (ix1 (i 1)) := by
  obtain ⟨p, c, rfl⟩ : ∃ p c, i = ix2 p c := ⟨i 0, i 1, eq_ix2 i⟩
  exact (broadcastTo_1b_ab_apply _ h2 p c).trans (shapeCast_a_1a_apply b h1 0 c)

/-- The three gates' columns of a 192-wide row. -/
theorem gate_r (X : (⟨2, ![2048, 192]⟩ : Shape).Idx → α)
    (h : (⟨2, ![2048, 192]⟩ : Shape).Slices ![0, 0] ⟨2, ![2048, 64]⟩) (i : (⟨2, ![2048, 64]⟩ : Shape).Idx) :
    extractStridedSlice ⟨2, ![2048, 64]⟩ ![0, 0] X h i = X (ix2 (i 0) (colR (i 1))) := by
  obtain ⟨p, q, rfl⟩ : ∃ p q, i = ix2 p q := ⟨i 0, i 1, eq_ix2 i⟩
  exact slice2_axis1_apply 0 X h p q (colR q) (Nat.zero_add _).symm
theorem gate_z (X : (⟨2, ![2048, 192]⟩ : Shape).Idx → α)
    (h : (⟨2, ![2048, 192]⟩ : Shape).Slices ![0, 64] ⟨2, ![2048, 64]⟩) (i : (⟨2, ![2048, 64]⟩ : Shape).Idx) :
    extractStridedSlice ⟨2, ![2048, 64]⟩ ![0, 64] X h i = X (ix2 (i 0) (colZ (i 1))) := by
  obtain ⟨p, q, rfl⟩ : ∃ p q, i = ix2 p q := ⟨i 0, i 1, eq_ix2 i⟩
  exact slice2_axis1_apply 64 X h p q (colZ q) rfl
theorem gate_n (X : (⟨2, ![2048, 192]⟩ : Shape).Idx → α)
    (h : (⟨2, ![2048, 192]⟩ : Shape).Slices ![0, 128] ⟨2, ![2048, 64]⟩) (i : (⟨2, ![2048, 64]⟩ : Shape).Idx) :
    extractStridedSlice ⟨2, ![2048, 64]⟩ ![0, 128] X h i = X (ix2 (i 0) (colN (i 1))) := by
  obtain ⟨p, q, rfl⟩ : ∃ p q, i = ix2 p q := ⟨i 0, i 1, eq_ix2 i⟩
  exact slice2_axis1_apply 128 X h p q (colN q) rfl

/-- A per-batch row [256, 64] put back beside the agent axis ([256, 1, 64]) and repeated over the 8 agents:
    entry (b, a, j) is the row's entry (b, j). -/
theorem keep_bcast (Y : S256x64.Idx → α) (h1 : S256x64.ShapeCasts S256x1x64) (h2 : S256x1x64.Broadcasts S256x8x64)
    (i : S256x8x64.Idx) :
    broadcastTo S256x8x64 (shapeCast S256x1x64 Y h1) h2 i = Y (ix2 (i 0) (i 2)) := by
  refine (broadcastTo_apply _ h2 i (ix3 (i 0) (0 : Fin 1) (i 2)) (fun a => ?_)).trans
    (shapeCast_apply Y h1 _ (ix2 (i 0) (i 2)) ?_)
  · match a with
    | ⟨0, _⟩ => rfl
    | ⟨1, _⟩ => rfl
    | ⟨2, _⟩ => rfl
  · rw [Shape.rowMajor_val_two, Shape.rowMajor_val_three]
    show (i 0).val * 64 + (i 2).val = ((i 0).val * 1 + 0) * 64 + (i 2).val
    omega

end layout

/-- The sigmoid and tanh of a vector, entry by entry. -/
theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-- The sum over the agent axis of a [256, 8, 64] array: entry (b, j) is the sum over the 8 agents of (b, a, j). -/
theorem agent_sum (X : FVec Ideal S256x8x64 .f32) (h : S256x8x64.Reduces [1] S256x64)
    (hφ : FKind.Formats .f32) (hacc : (0x00000000#32 : BitVec 32) = 0x00000000#32) (j : S256x64.Idx) :
    multiReduction (F := Ideal) .add [1] S256x64 X 0x00000000#32 h hφ hacc j = ∑ k : Fin 8, X (ix3 (j 0) k (j 1)) :=
  (Ideal.multiReduction_add_single X 0x00000000#32 h hφ hacc j).trans
    (Finset.sum_congr rfl fun k _ => congrArg X (funext fun a => Fin.ext (by
      match a with
      | ⟨0, _⟩ => rfl
      | ⟨1, _⟩ => rfl
      | ⟨2, _⟩ => rfl)))

/-! ## The five matrix products, for any witness of the program's stated side conditions -/

variable [Facts₀]

/-- The observation half of the encoder: [2048, 128] by [128, 64]. Into a zero accumulator the product at (p, j) is the sum over k of A(p, k) · B(k, j). -/
theorem mm_enc_obs {φ₁ φ₂ : FTy} (A : FVec Ideal S2048x128 φ₁) (B : FVec Ideal S128x64 φ₂) (i : S2048x64.Idx) :
    matmul (F := Ideal) dot_S2048x128_S128x64_S2048x64_1_0_0_1_n_n none A B (constant S2048x64 .f32 0x00000000#32) i
      = ∑ k : Fin 128, A (ix2 (i 0) k) * B (ix2 k (i 1)) := by
  simp only [matmul]
  rw [Ideal.matmul_constant_zero_apply, ← Equiv.sum_comp (contrEquiv1 dot_S2048x128_S128x64_S2048x64_1_0_0_1_n_n 128 rfl rfl).symm]
  refine Finset.sum_congr rfl fun k _ => ?_
  have hk := contrEquiv1_symm_val dot_S2048x128_S128x64_S2048x64_1_0_0_1_n_n 128 rfl rfl k
  have l0 : ∀ q, (dot_S2048x128_S128x64_S2048x64_1_0_0_1_n_n.lhsIdx i q 0).val = (i 0).val := fun q => by
    unfold DotDims.lhsIdx
    rw [dif_neg (show ¬(0 : Fin S2048x128.rank) ∈ dot_S2048x128_S128x64_S2048x64_1_0_0_1_n_n.lhsBatch from List.not_mem_nil),
      dif_pos (show (0 : Fin S2048x128.rank) ∈ dot_S2048x128_S128x64_S2048x64_1_0_0_1_n_n.lhsNonContracting from List.mem_singleton_self _)]
    rfl
  have r1 : ∀ q, (dot_S2048x128_S128x64_S2048x64_1_0_0_1_n_n.rhsIdx i q 1).val = (i 1).val := fun q => by
    unfold DotDims.rhsIdx
    rw [dif_neg (show ¬(1 : Fin S128x64.rank) ∈ dot_S2048x128_S128x64_S2048x64_1_0_0_1_n_n.rhsBatch from List.not_mem_nil),
      dif_pos (show (1 : Fin S128x64.rank) ∈ dot_S2048x128_S128x64_S2048x64_1_0_0_1_n_n.rhsNonContracting from List.mem_singleton_self _)]
    rfl
  have el : dot_S2048x128_S128x64_S2048x64_1_0_0_1_n_n.lhsIdx i ((contrEquiv1 dot_S2048x128_S128x64_S2048x64_1_0_0_1_n_n 128 rfl rfl).symm k) = ix2 (i 0) k :=
    funext fun a => Fin.ext (by
      match a with
      | ⟨0, _⟩ => exact l0 _
      | ⟨1, _⟩ => exact (dot_S2048x128_S128x64_S2048x64_1_0_0_1_n_n.lhsIdx_val_of_single rfl i _).trans hk)
  have er : dot_S2048x128_S128x64_S2048x64_1_0_0_1_n_n.rhsIdx i ((contrEquiv1 dot_S2048x128_S128x64_S2048x64_1_0_0_1_n_n 128 rfl rfl).symm k) = ix2 k (i 1) :=
    funext fun a => Fin.ext (by
      match a with
      | ⟨0, _⟩ => exact (dot_S2048x128_S128x64_S2048x64_1_0_0_1_n_n.rhsIdx_val_of_single rfl i _).trans hk
      | ⟨1, _⟩ => exact r1 _)
  rewrite [el, er]
  rfl

/-- The action half of the encoder: [2048, 16] by [16, 64]. Into a zero accumulator the product at (p, j) is the sum over k of A(p, k) · B(k, j). -/
theorem mm_enc_act {φ₁ φ₂ : FTy} (A : FVec Ideal S2048x16 φ₁) (B : FVec Ideal S16x64 φ₂) (i : S2048x64.Idx) :
    matmul (F := Ideal) dot_S2048x16_S16x64_S2048x64_1_0_0_1_n_n none A B (constant S2048x64 .f32 0x00000000#32) i
      = ∑ k : Fin 16, A (ix2 (i 0) k) * B (ix2 k (i 1)) := by
  simp only [matmul]
  rw [Ideal.matmul_constant_zero_apply, ← Equiv.sum_comp (contrEquiv1 dot_S2048x16_S16x64_S2048x64_1_0_0_1_n_n 16 rfl rfl).symm]
  refine Finset.sum_congr rfl fun k _ => ?_
  have hk := contrEquiv1_symm_val dot_S2048x16_S16x64_S2048x64_1_0_0_1_n_n 16 rfl rfl k
  have l0 : ∀ q, (dot_S2048x16_S16x64_S2048x64_1_0_0_1_n_n.lhsIdx i q 0).val = (i 0).val := fun q => by
    unfold DotDims.lhsIdx
    rw [dif_neg (show ¬(0 : Fin S2048x16.rank) ∈ dot_S2048x16_S16x64_S2048x64_1_0_0_1_n_n.lhsBatch from List.not_mem_nil),
      dif_pos (show (0 : Fin S2048x16.rank) ∈ dot_S2048x16_S16x64_S2048x64_1_0_0_1_n_n.lhsNonContracting from List.mem_singleton_self _)]
    rfl
  have r1 : ∀ q, (dot_S2048x16_S16x64_S2048x64_1_0_0_1_n_n.rhsIdx i q 1).val = (i 1).val := fun q => by
    unfold DotDims.rhsIdx
    rw [dif_neg (show ¬(1 : Fin S16x64.rank) ∈ dot_S2048x16_S16x64_S2048x64_1_0_0_1_n_n.rhsBatch from List.not_mem_nil),
      dif_pos (show (1 : Fin S16x64.rank) ∈ dot_S2048x16_S16x64_S2048x64_1_0_0_1_n_n.rhsNonContracting from List.mem_singleton_self _)]
    rfl
  have el : dot_S2048x16_S16x64_S2048x64_1_0_0_1_n_n.lhsIdx i ((contrEquiv1 dot_S2048x16_S16x64_S2048x64_1_0_0_1_n_n 16 rfl rfl).symm k) = ix2 (i 0) k :=
    funext fun a => Fin.ext (by
      match a with
      | ⟨0, _⟩ => exact l0 _
      | ⟨1, _⟩ => exact (dot_S2048x16_S16x64_S2048x64_1_0_0_1_n_n.lhsIdx_val_of_single rfl i _).trans hk)
  have er : dot_S2048x16_S16x64_S2048x64_1_0_0_1_n_n.rhsIdx i ((contrEquiv1 dot_S2048x16_S16x64_S2048x64_1_0_0_1_n_n 16 rfl rfl).symm k) = ix2 k (i 1) :=
    funext fun a => Fin.ext (by
      match a with
      | ⟨0, _⟩ => exact (dot_S2048x16_S16x64_S2048x64_1_0_0_1_n_n.rhsIdx_val_of_single rfl i _).trans hk
      | ⟨1, _⟩ => exact r1 _)
  rewrite [el, er]
  rfl

/-- The observation layer: [2048, 64] by [64, 64]. Into a zero accumulator the product at (p, j) is the sum over k of A(p, k) · B(k, j). -/
theorem mm_obs {φ₁ φ₂ : FTy} (A : FVec Ideal S2048x64 φ₁) (B : FVec Ideal S64x64 φ₂) (i : S2048x64.Idx) :
    matmul (F := Ideal) dot_S2048x64_S64x64_S2048x64_1_0_0_1_n_n none A B (constant S2048x64 .f32 0x00000000#32) i
      = ∑ k : Fin 64, A (ix2 (i 0) k) * B (ix2 k (i 1)) := by
  simp only [matmul]
  rw [Ideal.matmul_constant_zero_apply, ← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have l0 : ∀ q, (dot_S2048x64_S64x64_S2048x64_1_0_0_1_n_n.lhsIdx i q 0).val = (i 0).val := fun q => by
    unfold DotDims.lhsIdx
    rw [dif_neg (show ¬(0 : Fin S2048x64.rank) ∈ dot_S2048x64_S64x64_S2048x64_1_0_0_1_n_n.lhsBatch from List.not_mem_nil),
      dif_pos (show (0 : Fin S2048x64.rank) ∈ dot_S2048x64_S64x64_S2048x64_1_0_0_1_n_n.lhsNonContracting from List.mem_singleton_self _)]
    rfl
  have r1 : ∀ q, (dot_S2048x64_S64x64_S2048x64_1_0_0_1_n_n.rhsIdx i q 1).val = (i 1).val := fun q => by
    unfold DotDims.rhsIdx
    rw [dif_neg (show ¬(1 : Fin S64x64.rank) ∈ dot_S2048x64_S64x64_S2048x64_1_0_0_1_n_n.rhsBatch from List.not_mem_nil),
      dif_pos (show (1 : Fin S64x64.rank) ∈ dot_S2048x64_S64x64_S2048x64_1_0_0_1_n_n.rhsNonContracting from List.mem_singleton_self _)]
    rfl
  have el : dot_S2048x64_S64x64_S2048x64_1_0_0_1_n_n.lhsIdx i ((contrEquiv1 dot_S2048x64_S64x64_S2048x64_1_0_0_1_n_n 64 rfl rfl).symm k) = ix2 (i 0) k :=
    funext fun a => Fin.ext (by
      match a with
      | ⟨0, _⟩ => exact l0 _
      | ⟨1, _⟩ => exact (dot_S2048x64_S64x64_S2048x64_1_0_0_1_n_n.lhsIdx_val_of_single rfl i _).trans hk)
  have er : dot_S2048x64_S64x64_S2048x64_1_0_0_1_n_n.rhsIdx i ((contrEquiv1 dot_S2048x64_S64x64_S2048x64_1_0_0_1_n_n 64 rfl rfl).symm k) = ix2 k (i 1) :=
    funext fun a => Fin.ext (by
      match a with
      | ⟨0, _⟩ => exact (dot_S2048x64_S64x64_S2048x64_1_0_0_1_n_n.rhsIdx_val_of_single rfl i _).trans hk
      | ⟨1, _⟩ => exact r1 _)
  rewrite [el, er]
  rfl

/-- A gate product: [2048, 64] by [64, 192]. Into a zero accumulator the product at (p, j) is the sum over k of A(p, k) · B(k, j). -/
theorem mm_gate {φ₁ φ₂ : FTy} (A : FVec Ideal S2048x64 φ₁) (B : FVec Ideal S64x192 φ₂) (i : S2048x192.Idx) :
    matmul (F := Ideal) dot_S2048x64_S64x192_S2048x192_1_0_0_1_n_n none A B (constant S2048x192 .f32 0x00000000#32) i
      = ∑ k : Fin 64, A (ix2 (i 0) k) * B (ix2 k (i 1)) := by
  simp only [matmul]
  rw [Ideal.matmul_constant_zero_apply, ← Equiv.sum_comp (contrEquiv1 dot_S2048x64_S64x192_S2048x192_1_0_0_1_n_n 64 rfl rfl).symm]
  refine Finset.sum_congr rfl fun k _ => ?_
  have hk := contrEquiv1_symm_val dot_S2048x64_S64x192_S2048x192_1_0_0_1_n_n 64 rfl rfl k
  have l0 : ∀ q, (dot_S2048x64_S64x192_S2048x192_1_0_0_1_n_n.lhsIdx i q 0).val = (i 0).val := fun q => by
    unfold DotDims.lhsIdx
    rw [dif_neg (show ¬(0 : Fin S2048x64.rank) ∈ dot_S2048x64_S64x192_S2048x192_1_0_0_1_n_n.lhsBatch from List.not_mem_nil),
      dif_pos (show (0 : Fin S2048x64.rank) ∈ dot_S2048x64_S64x192_S2048x192_1_0_0_1_n_n.lhsNonContracting from List.mem_singleton_self _)]
    rfl
  have r1 : ∀ q, (dot_S2048x64_S64x192_S2048x192_1_0_0_1_n_n.rhsIdx i q 1).val = (i 1).val := fun q => by
    unfold DotDims.rhsIdx
    rw [dif_neg (show ¬(1 : Fin S64x192.rank) ∈ dot_S2048x64_S64x192_S2048x192_1_0_0_1_n_n.rhsBatch from List.not_mem_nil),
      dif_pos (show (1 : Fin S64x192.rank) ∈ dot_S2048x64_S64x192_S2048x192_1_0_0_1_n_n.rhsNonContracting from List.mem_singleton_self _)]
    rfl
  have el : dot_S2048x64_S64x192_S2048x192_1_0_0_1_n_n.lhsIdx i ((contrEquiv1 dot_S2048x64_S64x192_S2048x192_1_0_0_1_n_n 64 rfl rfl).symm k) = ix2 (i 0) k :=
    funext fun a => Fin.ext (by
      match a with
      | ⟨0, _⟩ => exact l0 _
      | ⟨1, _⟩ => exact (dot_S2048x64_S64x192_S2048x192_1_0_0_1_n_n.lhsIdx_val_of_single rfl i _).trans hk)
  have er : dot_S2048x64_S64x192_S2048x192_1_0_0_1_n_n.rhsIdx i ((contrEquiv1 dot_S2048x64_S64x192_S2048x192_1_0_0_1_n_n 64 rfl rfl).symm k) = ix2 k (i 1) :=
    funext fun a => Fin.ext (by
      match a with
      | ⟨0, _⟩ => exact (dot_S2048x64_S64x192_S2048x192_1_0_0_1_n_n.rhsIdx_val_of_single rfl i _).trans hk
      | ⟨1, _⟩ => exact r1 _)
  rewrite [el, er]
  rfl

/-- The decoder: [2048, 64] by [64, 1]. Into a zero accumulator the product at (p, j) is the sum over k of A(p, k) · B(k, j). -/
theorem mm_dec {φ₁ φ₂ : FTy} (A : FVec Ideal S2048x64 φ₁) (B : FVec Ideal S64x1 φ₂) (i : S2048x1.Idx) :
    matmul (F := Ideal) dot_S2048x64_S64x1_S2048x1_1_0_0_1_n_n none A B (constant S2048x1 .f32 0x00000000#32) i
      = ∑ k : Fin 64, A (ix2 (i 0) k) * B (ix2 k (i 1)) := by
  simp only [matmul]
  rw [Ideal.matmul_constant_zero_apply, ← Equiv.sum_comp (contrEquiv1 dot_S2048x64_S64x1_S2048x1_1_0_0_1_n_n 64 rfl rfl).symm]
  refine Finset.sum_congr rfl fun k _ => ?_
  have hk := contrEquiv1_symm_val dot_S2048x64_S64x1_S2048x1_1_0_0_1_n_n 64 rfl rfl k
  have l0 : ∀ q, (dot_S2048x64_S64x1_S2048x1_1_0_0_1_n_n.lhsIdx i q 0).val = (i 0).val := fun q => by
    unfold DotDims.lhsIdx
    rw [dif_neg (show ¬(0 : Fin S2048x64.rank) ∈ dot_S2048x64_S64x1_S2048x1_1_0_0_1_n_n.lhsBatch from List.not_mem_nil),
      dif_pos (show (0 : Fin S2048x64.rank) ∈ dot_S2048x64_S64x1_S2048x1_1_0_0_1_n_n.lhsNonContracting from List.mem_singleton_self _)]
    rfl
  have r1 : ∀ q, (dot_S2048x64_S64x1_S2048x1_1_0_0_1_n_n.rhsIdx i q 1).val = (i 1).val := fun q => by
    unfold DotDims.rhsIdx
    rw [dif_neg (show ¬(1 : Fin S64x1.rank) ∈ dot_S2048x64_S64x1_S2048x1_1_0_0_1_n_n.rhsBatch from List.not_mem_nil),
      dif_pos (show (1 : Fin S64x1.rank) ∈ dot_S2048x64_S64x1_S2048x1_1_0_0_1_n_n.rhsNonContracting from List.mem_singleton_self _)]
    rfl
  have el : dot_S2048x64_S64x1_S2048x1_1_0_0_1_n_n.lhsIdx i ((contrEquiv1 dot_S2048x64_S64x1_S2048x1_1_0_0_1_n_n 64 rfl rfl).symm k) = ix2 (i 0) k :=
    funext fun a => Fin.ext (by
      match a with
      | ⟨0, _⟩ => exact l0 _
      | ⟨1, _⟩ => exact (dot_S2048x64_S64x1_S2048x1_1_0_0_1_n_n.lhsIdx_val_of_single rfl i _).trans hk)
  have er : dot_S2048x64_S64x1_S2048x1_1_0_0_1_n_n.rhsIdx i ((contrEquiv1 dot_S2048x64_S64x1_S2048x1_1_0_0_1_n_n 64 rfl rfl).symm k) = ix2 k (i 1) :=
    funext fun a => Fin.ext (by
      match a with
      | ⟨0, _⟩ => exact (dot_S2048x64_S64x1_S2048x1_1_0_0_1_n_n.rhsIdx_val_of_single rfl i _).trans hk
      | ⟨1, _⟩ => exact r1 _)
  rewrite [el, er]
  rfl

/-! ## The same readings at indices written by their coordinates

Stated over coordinates of literal extents (a row p of 2048, a batch b of 256, an agent a of 8, a column of its width), so that
every index a proof meets stays of the form ix2 p q / ix3 b a j of such coordinates. -/

section coords
variable {α : Type}

theorem cast_rows_at {n : ℕ} (x : (⟨3, ![256, 8, n]⟩ : Shape).Idx → α)
    (h : (⟨3, ![256, 8, n]⟩ : Shape).ShapeCasts ⟨2, ![2048, n]⟩) (p : Fin 2048) (k : Fin n) :
    shapeCast ⟨2, ![2048, n]⟩ x h (ix2 p k) = x (ix3 (kb p) (ka p) k) := cast_rows x h (ix2 p k)

theorem cast_batches_at {n : ℕ} (x : (⟨2, ![2048, n]⟩ : Shape).Idx → α)
    (h : (⟨2, ![2048, n]⟩ : Shape).ShapeCasts ⟨3, ![256, 8, n]⟩) (b : Fin 256) (a : Fin 8) (k : Fin n) :
    shapeCast ⟨3, ![256, 8, n]⟩ x h (ix3 b a k) = x (ix2 (row b a) k) := cast_batches x h (ix3 b a k)

theorem bias_row_at {a n : ℕ} (b : (⟨1, ![n]⟩ : Shape).Idx → α) (h1 : (⟨1, ![n]⟩ : Shape).ShapeCasts ⟨2, ![1, n]⟩)
    (h2 : (⟨2, ![1, n]⟩ : Shape).Broadcasts ⟨2, ![a, n]⟩) (p : Fin a) (c : Fin n) :
    broadcastTo ⟨2, ![a, n]⟩ (shapeCast ⟨2, ![1, n]⟩ b h1) h2 (ix2 p c) = b (ix1 c) := bias_row b h1 h2 (ix2 p c)

theorem gate_r_at (X : (⟨2, ![2048, 192]⟩ : Shape).Idx → α)
    (h : (⟨2, ![2048, 192]⟩ : Shape).Slices ![0, 0] ⟨2, ![2048, 64]⟩) (p : Fin 2048) (q : Fin 64) :
    extractStridedSlice ⟨2, ![2048, 64]⟩ ![0, 0] X h (ix2 p q) = X (ix2 p (colR q)) := gate_r X h (ix2 p q)
theorem gate_z_at (X : (⟨2, ![2048, 192]⟩ : Shape).Idx → α)
    (h : (⟨2, ![2048, 192]⟩ : Shape).Slices ![0, 64] ⟨2, ![2048, 64]⟩) (p : Fin 2048) (q : Fin 64) :
    extractStridedSlice ⟨2, ![2048, 64]⟩ ![0, 64] X h (ix2 p q) = X (ix2 p (colZ q)) := gate_z X h (ix2 p q)
theorem gate_n_at (X : (⟨2, ![2048, 192]⟩ : Shape).Idx → α)
    (h : (⟨2, ![2048, 192]⟩ : Shape).Slices ![0, 128] ⟨2, ![2048, 64]⟩) (p : Fin 2048) (q : Fin 64) :
    extractStridedSlice ⟨2, ![2048, 64]⟩ ![0, 128] X h (ix2 p q) = X (ix2 p (colN q)) := gate_n X h (ix2 p q)

theorem keep_bcast_at (Y : S256x64.Idx → α) (h1 : S256x64.ShapeCasts S256x1x64) (h2 : S256x1x64.Broadcasts S256x8x64)
    (b : Fin 256) (a : Fin 8) (j : Fin 64) :
    broadcastTo S256x8x64 (shapeCast S256x1x64 Y h1) h2 (ix3 b a j) = Y (ix2 b j) := keep_bcast Y h1 h2 (ix3 b a j)

end coords

theorem agent_sum_at (X : FVec Ideal S256x8x64 .f32) (h : S256x8x64.Reduces [1] S256x64)
    (hφ : FKind.Formats .f32) (hacc : (0x00000000#32 : BitVec 32) = 0x00000000#32) (b : Fin 256) (j : Fin 64) :
    multiReduction (F := Ideal) .add [1] S256x64 X 0x00000000#32 h hφ hacc (ix2 b j) = ∑ k : Fin 8, X (ix3 b k j) :=
  agent_sum X h hφ hacc (ix2 b j)

theorem mm_enc_obs_at {φ₁ φ₂ : FTy} (A : FVec Ideal S2048x128 φ₁) (B : FVec Ideal S128x64 φ₂) (p : Fin 2048) (j : Fin 64) :
    matmul (F := Ideal) dot_S2048x128_S128x64_S2048x64_1_0_0_1_n_n none A B (constant S2048x64 .f32 0x00000000#32) (ix2 p j)
      = ∑ k : Fin 128, A (ix2 p k) * B (ix2 k j) := mm_enc_obs A B (ix2 p j)

theorem mm_enc_act_at {φ₁ φ₂ : FTy} (A : FVec Ideal S2048x16 φ₁) (B : FVec Ideal S16x64 φ₂) (p : Fin 2048) (j : Fin 64) :
    matmul (F := Ideal) dot_S2048x16_S16x64_S2048x64_1_0_0_1_n_n none A B (constant S2048x64 .f32 0x00000000#32) (ix2 p j)
      = ∑ k : Fin 16, A (ix2 p k) * B (ix2 k j) := mm_enc_act A B (ix2 p j)

theorem mm_obs_at {φ₁ φ₂ : FTy} (A : FVec Ideal S2048x64 φ₁) (B : FVec Ideal S64x64 φ₂) (p : Fin 2048) (j : Fin 64) :
    matmul (F := Ideal) dot_S2048x64_S64x64_S2048x64_1_0_0_1_n_n none A B (constant S2048x64 .f32 0x00000000#32) (ix2 p j)
      = ∑ k : Fin 64, A (ix2 p k) * B (ix2 k j) := mm_obs A B (ix2 p j)

theorem mm_gate_at {φ₁ φ₂ : FTy} (A : FVec Ideal S2048x64 φ₁) (B : FVec Ideal S64x192 φ₂) (p : Fin 2048) (j : Fin 192) :
    matmul (F := Ideal) dot_S2048x64_S64x192_S2048x192_1_0_0_1_n_n none A B (constant S2048x192 .f32 0x00000000#32) (ix2 p j)
      = ∑ k : Fin 64, A (ix2 p k) * B (ix2 k j) := mm_gate A B (ix2 p j)

theorem mm_dec_at {φ₁ φ₂ : FTy} (A : FVec Ideal S2048x64 φ₁) (B : FVec Ideal S64x1 φ₂) (p : Fin 2048) (j : Fin 1) :
    matmul (F := Ideal) dot_S2048x64_S64x1_S2048x1_1_0_0_1_n_n none A B (constant S2048x1 .f32 0x00000000#32) (ix2 p j)
      = ∑ k : Fin 64, A (ix2 p k) * B (ix2 k j) := mm_dec A B (ix2 p j)

end Cert.Critic.Kern

end
-- ==== Proof.KernelPay.lean ====
/-
  The kernel body's stored value, payload by payload, read at an index: each is the specification's layer over the
  block's rows, and the stored [256, 8, 1] block is the specification's result array over the block's inputs.
  The kernel multiplies the observation features by the first 128 rows of the encoder's weights and the action features
  by the last 16 and adds the two products: the sum over the 144 joined positions, split as 128 + 16.
-/
import proofs.«113104_j16681652977907_1_alg».proof.Proof.Gen.KernelIdeal.Skeleton
import proofs.«113104_j16681652977907_1_alg».proof.Proof.KernelOps

set_option maxHeartbeats 1000000

noncomputable section

namespace Cert.Critic.Kern

open Cert.KernelIdeal Cert.KernelIdeal.Gen Idealize.ShloMosaic Idealize.ShloMosaic.ValueIdx Cert.Critic

/-- The encoder's weights as the kernel holds them: 128 observation rows followed by 16 action rows. -/
def matCat (A : Fin 128 → Fin 64 → EReal) (B : Fin 16 → Fin 64 → EReal) : Fin 144 → Fin 64 → EReal :=
  fun k j => cat (fun k => A k j) (fun k => B k j) k

/-- The parameters read off the kernel's eleven parameter blocks. -/
def kparams (x2 : Vec Ideal S128x64 .f32) (x3 : Vec Ideal S16x64 .f32) (x4 : Vec Ideal S64 .f32) (x5 : Vec Ideal S64x64 .f32)
    (x6 : Vec Ideal S64 .f32) (x7 : Vec Ideal S64x192 .f32) (x8 : Vec Ideal S192 .f32) (x9 : Vec Ideal S64x192 .f32)
    (x10 : Vec Ideal S192 .f32) (x11 : Vec Ideal S64x1 .f32) (x12 : Vec Ideal S1 .f32) : Params :=
  ⟨matCat (mat x2) (mat x3), vec x4, mat x5, vec x6, mat x7, vec x8, mat x9, vec x10, mat x11, vec x12⟩

/-- h0 of row p: the two encoder products joined (a sum over 128 + 16 = 144 positions), the bias, the maximum with
    zero, the observation layer. -/
theorem pay2_apply (v0 : Vec Ideal S256x8x128 .f32) (v2 : Vec Ideal S256x8x16 .f32) (v4 : Vec Ideal S128x64 .f32)
    (v6 : Vec Ideal S16x64 .f32) (v8 : Vec Ideal S64 .f32) (v21 : Vec Ideal S64x64 .f32) (v22 : Vec Ideal S64 .f32)
    (p : Fin 2048) (q : Fin 64) :
    k0_pay2 (F := Ideal) v0 v2 v4 v6 v8 v21 v22 (ix2 p q)
      = dense (fun k => max (dense (rows v0 v2 (kb p) (ka p)) (matCat (mat v4) (mat v6)) (vec v8) k) zero)
          (mat v21) (vec v22) q := by
  unfold k0_pay2
  simp only [addf_apply, maximumf_apply, truncf_apply, broadcast_apply, mm_enc_obs_at, mm_enc_act_at, mm_obs_at, bias_row_at,
    cast_rows_at, shapeCast_self, sum_cat]
  rfl

/-- The GRU cell of row p, from the context rows v33 and the state rows v28. -/
theorem pay4_apply (v28 : FVec Ideal S2048x64 .f32) (v29 : Vec Ideal S64x192 .f32) (v30 : Vec Ideal S192 .f32) (v31 : Vec Ideal S64x192 .f32) (v32 : Vec Ideal S192 .f32) (v33 : FVec Ideal S2048x64 .f32) (p : Fin 2048) (q : Fin 64) :
    k0_pay4 (F := Ideal) v28 v29 v30 v31 v32 v33 (ix2 p q)
      = gruOut (dense (rowf v33 p) (mat v29) (vec v30)) (dense (rowf v28 p) (mat v31) (vec v32))
          (rowf v28 p) q := by
  unfold k0_pay4
  simp only [addf_apply, subf_apply, mulf_apply, truncf_apply, broadcast_apply, logistic_apply, tanh_apply,
    gate_r_at, gate_z_at, gate_n_at, mm_gate_at, bias_row_at]
  rfl

/-- The second cell's input gates of row p: the all-but-self mean of the batch's states through Wi. -/
theorem pay5_apply (v28 : FVec Ideal S2048x64 .f32) (v29 : Vec Ideal S64x192 .f32) (v30 : Vec Ideal S192 .f32) (v31 : Vec Ideal S64x192 .f32) (v32 : Vec Ideal S192 .f32) (v33 : FVec Ideal S2048x64 .f32) (p : Fin 2048) (q : Fin 192) :
    k0_pay5 (F := Ideal) v28 v29 v30 v31 v32 v33 (ix2 p q)
      = dense (context (fun a' => rowf (k0_pay4 (F := Ideal) v28 v29 v30 v31 v32 v33) (row (kb p) a')) (ka p))
          (mat v29) (vec v30) q := by
  unfold k0_pay5
  simp only [addf_apply, subf_apply, mulf_apply, truncf_apply, broadcast_apply, mm_gate_at, bias_row_at, cast_rows_at,
    cast_batches_at, keep_bcast_at]
  unfold dense
  refine congrArg₂ (· + ·) (Finset.sum_congr rfl fun k _ => ?_) rfl
  rw [agent_sum_at]
  simp only [cast_batches_at]
  rfl

/-- The second cell's state gates of row p: the first cell's result through Wh. -/
theorem pay6_apply (v28 : FVec Ideal S2048x64 .f32) (v29 : Vec Ideal S64x192 .f32) (v30 : Vec Ideal S192 .f32) (v31 : Vec Ideal S64x192 .f32) (v32 : Vec Ideal S192 .f32) (v33 : FVec Ideal S2048x64 .f32) (p : Fin 2048) (q : Fin 192) :
    k0_pay6 (F := Ideal) v28 v29 v30 v31 v32 v33 (ix2 p q)
      = dense (rowf (k0_pay4 (F := Ideal) v28 v29 v30 v31 v32 v33) p) (mat v31) (vec v32) q := by
  unfold k0_pay6
  simp only [addf_apply, truncf_apply, mm_gate_at, bias_row_at]
  rfl

/-- The stored value at (b, a, 0): the second cell of row 8·b + a from its input gates' three slices, its state gates and
    its state, through the decoder. -/
theorem pay1_apply (v63 : FVec Ideal S2048x64 .f32) (v83 : FVec Ideal S2048x192 .f32) (GI : FVec Ideal S2048x192 .f32)
    (h0 : S2048x192.Slices ![0, 0] S2048x64) (h64 : S2048x192.Slices ![0, 64] S2048x64)
    (h128 : S2048x192.Slices ![0, 128] S2048x64) (v102 : Vec Ideal S64x1 .f32) (v103 : Vec Ideal S1 .f32)
    (b : Fin 256) (a : Fin 8) (z : Fin 1) :
    k0_pay1 (F := Ideal) v63 v83 (extractStridedSlice S2048x64 ![0, 0] GI h0) (extractStridedSlice S2048x64 ![0, 64] GI h64)
        (extractStridedSlice S2048x64 ![0, 128] GI h128) v102 v103 (ix3 b a z)
      = dense (gruOut (rowf GI (row b a)) (rowf v83 (row b a)) (rowf v63 (row b a)))
          (mat v102) (vec v103) z := by
  unfold k0_pay1
  simp only [addf_apply, subf_apply, mulf_apply, truncf_apply, broadcast_apply, logistic_apply, tanh_apply,
    gate_r_at, gate_z_at, gate_n_at, mm_dec_at, bias_row_at, cast_batches_at]
  rfl

/-- The body's stored block is the specification's result array over the block's inputs. -/
theorem body_value (x0 : Vec Ideal S256x8x128 .f32) (x1 : Vec Ideal S256x8x16 .f32) (x2 : Vec Ideal S128x64 .f32) (x3 : Vec Ideal S16x64 .f32) (x4 : Vec Ideal S64 .f32) (x5 : Vec Ideal S64x64 .f32) (x6 : Vec Ideal S64 .f32) (x7 : Vec Ideal S64x192 .f32) (x8 : Vec Ideal S192 .f32) (x9 : Vec Ideal S64x192 .f32) (x10 : Vec Ideal S192 .f32) (x11 : Vec Ideal S64x1 .f32) (x12 : Vec Ideal S1 .f32) :
    k0_pay1 (F := Ideal) (k0_pay4 (F := Ideal) (k0_pay2 (F := Ideal) x0 x1 x2 x3 x4 x5 x6) x7 x8 x9 x10 (k0_pay3 (F := Ideal))) (k0_pay6 (F := Ideal) (k0_pay2 (F := Ideal) x0 x1 x2 x3 x4 x5 x6) x7 x8 x9 x10 (k0_pay3 (F := Ideal))) (k0_pay7 (F := Ideal) (k0_pay2 (F := Ideal) x0 x1 x2 x3 x4 x5 x6) x7 x8 x9 x10 (k0_pay3 (F := Ideal)))
        (k0_pay8 (F := Ideal) (k0_pay2 (F := Ideal) x0 x1 x2 x3 x4 x5 x6) x7 x8 x9 x10 (k0_pay3 (F := Ideal))) (k0_pay9 (F := Ideal) (k0_pay2 (F := Ideal) x0 x1 x2 x3 x4 x5 x6) x7 x8 x9 x10 (k0_pay3 (F := Ideal))) x11 x12
      = G x0 x1 (kparams x2 x3 x4 x5 x6 x7 x8 x9 x10 x11 x12) := by
  funext y
  obtain ⟨b, a, z, rfl⟩ : ∃ (b : Fin 256) (a : Fin 8) (z : Fin 1), y = ix3 b a z := ⟨y 0, y 1, y 2, eq_ix3 y⟩
  have hz : z = 0 := Subsingleton.elim _ _
  subst hz
  have e2 : ∀ p, rowf (k0_pay2 (F := Ideal) x0 x1 x2 x3 x4 x5 x6) p = hidden0 (kparams x2 x3 x4 x5 x6 x7 x8 x9 x10 x11 x12) (rows x0 x1 (kb p) (ka p)) := fun p => funext fun j => by
    show k0_pay2 (F := Ideal) x0 x1 x2 x3 x4 x5 x6 (ix2 p j) = _
    rw [pay2_apply]; rfl
  have e3 : ∀ p, rowf (k0_pay3 (F := Ideal)) p = fun _ => zero := fun p => rfl
  have e4 : ∀ p, rowf (k0_pay4 (F := Ideal) (k0_pay2 (F := Ideal) x0 x1 x2 x3 x4 x5 x6) x7 x8 x9 x10 (k0_pay3 (F := Ideal))) p = hidden1 (kparams x2 x3 x4 x5 x6 x7 x8 x9 x10 x11 x12) (rows x0 x1 (kb p) (ka p)) :=
    fun p => funext fun j => by
      show k0_pay4 (F := Ideal) (k0_pay2 (F := Ideal) x0 x1 x2 x3 x4 x5 x6) x7 x8 x9 x10 (k0_pay3 (F := Ideal)) (ix2 p j) = _
      rw [pay4_apply, e3, e2]; rfl
  have e5 : ∀ p, rowf (k0_pay5 (F := Ideal) (k0_pay2 (F := Ideal) x0 x1 x2 x3 x4 x5 x6) x7 x8 x9 x10 (k0_pay3 (F := Ideal))) p
      = dense (context (fun a' => hidden1 (kparams x2 x3 x4 x5 x6 x7 x8 x9 x10 x11 x12) (rows x0 x1 (kb p) a')) (ka p)) (mat x7) (vec x8) :=
    fun p => funext fun j => by
      show k0_pay5 (F := Ideal) (k0_pay2 (F := Ideal) x0 x1 x2 x3 x4 x5 x6) x7 x8 x9 x10 (k0_pay3 (F := Ideal)) (ix2 p j) = _
      rw [pay5_apply]
      simp only [e4, kb_row, ka_row]
  have e6 : ∀ p, rowf (k0_pay6 (F := Ideal) (k0_pay2 (F := Ideal) x0 x1 x2 x3 x4 x5 x6) x7 x8 x9 x10 (k0_pay3 (F := Ideal))) p = dense (hidden1 (kparams x2 x3 x4 x5 x6 x7 x8 x9 x10 x11 x12) (rows x0 x1 (kb p) (ka p))) (mat x9) (vec x10) :=
    fun p => funext fun j => by
      show k0_pay6 (F := Ideal) (k0_pay2 (F := Ideal) x0 x1 x2 x3 x4 x5 x6) x7 x8 x9 x10 (k0_pay3 (F := Ideal)) (ix2 p j) = _
      rw [pay6_apply, e4]
  simp only [k0_pay7, k0_pay8, k0_pay9]
  rw [pay1_apply, e5, e6, e4]
  simp only [kb_row, ka_row]
  rfl

end Cert.Critic.Kern

end
-- ==== Proof.KernelArr.lean ====
/-
  From blocks to the array. Grid point t works on batches 256·t … 256·t + 255: the two input windows and the output
  window move together along the batch axis, and every parameter window's block is its whole array (the encoder's
  weights arrive as two row slices, rows 0–127 and rows 128–143 of W_enc, which rejoin it). What point t writes back is
  therefore block t of the specification's result array of the argument arrays, and the 256 blocks cover the array.
-/
import proofs.«113104_j16681652977907_1_alg».proof.Proof.Gen.KernelIdeal.Value
import proofs.«113104_j16681652977907_1_alg».proof.Proof.KernelPay
import Idealize.ShloMosaic.Lib.StableHlo.Run

set_option maxHeartbeats 1000000

noncomputable section

namespace Cert.Critic.Kern

open Cert.KernelIdeal Cert.KernelIdeal.Gen Idealize.ShloMosaic Idealize.ShloMosaic.TcCoe Idealize.SL.Sem
open Idealize.ShloMosaic.ValueIdx Cert.Critic
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The index maps, decided over the 256 grid points -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)
theorem idx13 : ∀ t : Fin cfg0.N, win0_13.index t (0 : Fin 3) = t.val ∧ win0_13.index t (1 : Fin 3) = 0 ∧ win0_13.index t (2 : Fin 3) = 0 :=
  (by decide +kernel : ∀ t : Fin grid0.N, win0_13.index t (0 : Fin 3) = t.val ∧ win0_13.index t (1 : Fin 3) = 0 ∧ win0_13.index t (2 : Fin 3) = 0)
theorem idxW2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idxW3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idxW4 : ∀ t : Fin cfg0.N, win0_4.index t (0 : Fin 1) = 0 :=
  (by decide +kernel : ∀ t : Fin grid0.N, win0_4.index t (0 : Fin 1) = 0)
theorem idxW5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idxW6 : ∀ t : Fin cfg0.N, win0_6.index t (0 : Fin 1) = 0 :=
  (by decide +kernel : ∀ t : Fin grid0.N, win0_6.index t (0 : Fin 1) = 0)
theorem idxW7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idxW8 : ∀ t : Fin cfg0.N, win0_8.index t (0 : Fin 1) = 0 :=
  (by decide +kernel : ∀ t : Fin grid0.N, win0_8.index t (0 : Fin 1) = 0)
theorem idxW9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idxW10 : ∀ t : Fin cfg0.N, win0_10.index t (0 : Fin 1) = 0 :=
  (by decide +kernel : ∀ t : Fin grid0.N, win0_10.index t (0 : Fin 1) = 0)
theorem idxW11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem idxW12 : ∀ t : Fin cfg0.N, win0_12.index t (0 : Fin 1) = 0 :=
  (by decide +kernel : ∀ t : Fin grid0.N, win0_12.index t (0 : Fin 1) = 0)

/-! ## The parameter windows -/

/-- Window 2's block at every point is its whole array. -/
theorem blkW2 (c : Dev nD) (t : Fin cfg0.N) : iblk m c 2 t = V m c main_v0 := by
  funext y
  show V m c main_v0 (((cfg0.win 2).blk t).view.emb y) = V m c main_v0 y
  refine congrArg (V m c main_v0) (funext fun a => Fin.ext ?_)
  match a with
    | ⟨0, _⟩ => show win0_2.index t (0 : Fin 2) * 128 + 1 * (y 0).val = (y 0).val; rw [(idxW2 t).1]; omega
    | ⟨1, _⟩ => show win0_2.index t (1 : Fin 2) * 64 + 1 * (y 1).val = (y 1).val; rw [(idxW2 t).2]; omega

/-- Window 3's block at every point is its whole array. -/
theorem blkW3 (c : Dev nD) (t : Fin cfg0.N) : iblk m c 3 t = V m c main_v1 := by
  funext y
  show V m c main_v1 (((cfg0.win 3).blk t).view.emb y) = V m c main_v1 y
  refine congrArg (V m c main_v1) (funext fun a => Fin.ext ?_)
  match a with
    | ⟨0, _⟩ => show win0_3.index t (0 : Fin 2) * 16 + 1 * (y 0).val = (y 0).val; rw [(idxW3 t).1]; omega
    | ⟨1, _⟩ => show win0_3.index t (1 : Fin 2) * 64 + 1 * (y 1).val = (y 1).val; rw [(idxW3 t).2]; omega

/-- Window 4's block at every point is its whole array. -/
theorem blkW4 (c : Dev nD) (t : Fin cfg0.N) : iblk m c 4 t = V m c main_arg3 := by
  funext y
  show V m c main_arg3 (((cfg0.win 4).blk t).view.emb y) = V m c main_arg3 y
  refine congrArg (V m c main_arg3) (funext fun a => Fin.ext ?_)
  match a with
    | ⟨0, _⟩ => show win0_4.index t (0 : Fin 1) * 64 + 1 * (y 0).val = (y 0).val; rw [(idxW4 t)]; omega

/-- Window 5's block at every point is its whole array. -/
theorem blkW5 (c : Dev nD) (t : Fin cfg0.N) : iblk m c 5 t = V m c main_arg4 := by
  funext y
  show V m c main_arg4 (((cfg0.win 5).blk t).view.emb y) = V m c main_arg4 y
  refine congrArg (V m c main_arg4) (funext fun a => Fin.ext ?_)
  match a with
    | ⟨0, _⟩ => show win0_5.index t (0 : Fin 2) * 64 + 1 * (y 0).val = (y 0).val; rw [(idxW5 t).1]; omega
    | ⟨1, _⟩ => show win0_5.index t (1 : Fin 2) * 64 + 1 * (y 1).val = (y 1).val; rw [(idxW5 t).2]; omega

/-- Window 6's block at every point is its whole array. -/
theorem blkW6 (c : Dev nD) (t : Fin cfg0.N) : iblk m c 6 t = V m c main_arg5 := by
  funext y
  show V m c main_arg5 (((cfg0.win 6).blk t).view.emb y) = V m c main_arg5 y
  refine congrArg (V m c main_arg5) (funext fun a => Fin.ext ?_)
  match a with
    | ⟨0, _⟩ => show win0_6.index t (0 : Fin 1) * 64 + 1 * (y 0).val = (y 0).val; rw [(idxW6 t)]; omega

/-- Window 7's block at every point is its whole array. -/
theorem blkW7 (c : Dev nD) (t : Fin cfg0.N) : iblk m c 7 t = V m c main_arg6 := by
  funext y
  show V m c main_arg6 (((cfg0.win 7).blk t).view.emb y) = V m c main_arg6 y
  refine congrArg (V m c main_arg6) (funext fun a => Fin.ext ?_)
  match a with
    | ⟨0, _⟩ => show win0_7.index t (0 : Fin 2) * 64 + 1 * (y 0).val = (y 0).val; rw [(idxW7 t).1]; omega
    | ⟨1, _⟩ => show win0_7.index t (1 : Fin 2) * 192 + 1 * (y 1).val = (y 1).val; rw [(idxW7 t).2]; omega

/-- Window 8's block at every point is its whole array. -/
theorem blkW8 (c : Dev nD) (t : Fin cfg0.N) : iblk m c 8 t = V m c main_arg7 := by
  funext y
  show V m c main_arg7 (((cfg0.win 8).blk t).view.emb y) = V m c main_arg7 y
  refine congrArg (V m c main_arg7) (funext fun a => Fin.ext ?_)
  match a with
    | ⟨0, _⟩ => show win0_8.index t (0 : Fin 1) * 192 + 1 * (y 0).val = (y 0).val; rw [(idxW8 t)]; omega

/-- Window 9's block at every point is its whole array. -/
theorem blkW9 (c : Dev nD) (t : Fin cfg0.N) : iblk m c 9 t = V m c main_arg8 := by
  funext y
  show V m c main_arg8 (((cfg0.win 9).blk t).view.emb y) = V m c main_arg8 y
  refine congrArg (V m c main_arg8) (funext fun a => Fin.ext ?_)
  match a with
    | ⟨0, _⟩ => show win0_9.index t (0 : Fin 2) * 64 + 1 * (y 0).val = (y 0).val; rw [(idxW9 t).1]; omega
    | ⟨1, _⟩ => show win0_9.index t (1 : Fin 2) * 192 + 1 * (y 1).val = (y 1).val; rw [(idxW9 t).2]; omega

/-- Window 10's block at every point is its whole array. -/
theorem blkW10 (c : Dev nD) (t : Fin cfg0.N) : iblk m c 10 t = V m c main_arg9 := by
  funext y
  show V m c main_arg9 (((cfg0.win 10).blk t).view.emb y) = V m c main_arg9 y
  refine congrArg (V m c main_arg9) (funext fun a => Fin.ext ?_)
  match a with
    | ⟨0, _⟩ => show win0_10.index t (0 : Fin 1) * 192 + 1 * (y 0).val = (y 0).val; rw [(idxW10 t)]; omega

/-- Window 11's block at every point is its whole array. -/
theorem blkW11 (c : Dev nD) (t : Fin cfg0.N) : iblk m c 11 t = V m c main_arg10 := by
  funext y
  show V m c main_arg10 (((cfg0.win 11).blk t).view.emb y) = V m c main_arg10 y
  refine congrArg (V m c main_arg10) (funext fun a => Fin.ext ?_)
  match a with
    | ⟨0, _⟩ => show win0_11.index t (0 : Fin 2) * 64 + 1 * (y 0).val = (y 0).val; rw [(idxW11 t).1]; omega
    | ⟨1, _⟩ => show win0_11.index t (1 : Fin 2) * 1 + 1 * (y 1).val = (y 1).val; rw [(idxW11 t).2]; omega

/-- Window 12's block at every point is its whole array. -/
theorem blkW12 (c : Dev nD) (t : Fin cfg0.N) : iblk m c 12 t = V m c main_arg11 := by
  funext y
  show V m c main_arg11 (((cfg0.win 12).blk t).view.emb y) = V m c main_arg11 y
  refine congrArg (V m c main_arg11) (funext fun a => Fin.ext ?_)
  match a with
    | ⟨0, _⟩ => show win0_12.index t (0 : Fin 1) * 1 + 1 * (y 0).val = (y 0).val; rw [(idxW12 t)]; omega

/-- The two host slices of W_enc before the region: rows 0–127 and rows 128–143. -/
theorem v0_eq (c : Dev nD) : ∃ h, (V m c main_v0 : S128x64.Idx → EReal)
    = extractStridedSlice S128x64 ![0, 0] (m ((c : Thread nD τ).loc main_arg2)) h :=
  ⟨_, by dsimp only [Gen.V, Gen.hostOps0]; after_results⟩
theorem v1_eq (c : Dev nD) : ∃ h, (V m c main_v1 : S16x64.Idx → EReal)
    = extractStridedSlice S16x64 ![128, 0] (m ((c : Thread nD τ).loc main_arg2)) h :=
  ⟨_, by dsimp only [Gen.V, Gen.hostOps0]; after_results⟩

/-- The two slices rejoin the encoder's weights. -/
theorem wenc_join (c : Dev nD) : matCat (mat (V m c main_v0)) (mat (V m c main_v1)) = mat (m ((c : Thread nD τ).loc main_arg2)) := by
  obtain ⟨h0, e0⟩ := v0_eq m c
  obtain ⟨h1, e1⟩ := v1_eq m c
  funext k j
  unfold matCat cat mat
  by_cases h : k.val < 128
  · rw [dif_pos h, e0]
    exact slice2_axis0_apply 0 _ h0 ⟨k.val, h⟩ j k (Nat.zero_add _).symm
  · rw [dif_neg h, e1]
    exact slice2_axis0_apply 128 _ h1 ⟨k.val - 128, by have := k.isLt; omega⟩ j k (by show k.val = 128 + (k.val - 128); omega)

/-- The parameters the body reads at any point are the arguments'. -/
theorem params_blk (c : Dev nD) (t : Fin cfg0.N) :
    kparams (iblk m c 2 t) (iblk m c 3 t) (iblk m c 4 t) (iblk m c 5 t) (iblk m c 6 t) (iblk m c 7 t) (iblk m c 8 t) (iblk m c 9 t) (iblk m c 10 t) (iblk m c 11 t) (iblk m c 12 t)
      = params (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [blkW2 m c t, blkW3 m c t, blkW4 m c t, blkW5 m c t, blkW6 m c t, blkW7 m c t, blkW8 m c t, blkW9 m c t, blkW10 m c t, blkW11 m c t, blkW12 m c t]
  unfold kparams params
  rw [wenc_join m c, V_main_arg3, V_main_arg4, V_main_arg5, V_main_arg6, V_main_arg7, V_main_arg8, V_main_arg9, V_main_arg10, V_main_arg11]

/-! ## What a point writes back, the cover, the array, the run -/

/-- The specification's result array of the argument arrays on core c. -/
abbrev result (c : Dev nD) : S65536x8x1.Idx → EReal := (G (m ((c : Thread nD τ).loc main_arg0)) (m ((c : Thread nD τ).loc main_arg1)) (params (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))))

/-- WHAT POINT t WRITES BACK is block t of the specification's result array. -/
theorem flushed_eq (c : Dev nD) (t : Fin cfg0.N) :
    (dats m 0 c).flushed 13 t = ((cfg0.win 13).blk t).view.read (Elt Ideal) (result m c) := by
  rw [Cert.KernelIdeal.Value.flushed13]
  unfold out0_13
  rw [View.canon_unit_zero hz3]
  simp only [View.ld_unit_zero (S := S256x8x128) hz3, View.ld_unit_zero (S := S256x8x16) hz3,
    View.ld_unit_zero (S := S128x64) hz2, View.ld_unit_zero (S := S16x64) hz2, View.ld_unit_zero (S := S64) hz1,
    View.ld_unit_zero (S := S64x64) hz2, View.ld_unit_zero (S := S64x192) hz2, View.ld_unit_zero (S := S192) hz1,
    View.ld_unit_zero (S := S64x1) hz2, View.ld_unit_zero (S := S1) hz1]
  rw [body_value]
  obtain ⟨a0, a1, a2⟩ := idx0 t
  obtain ⟨b0, b1, b2⟩ := idx1 t
  obtain ⟨o0, o1, o2⟩ := idx13 t
  funext y
  show value _ (rows (iblk m c 0 t) (iblk m c 1 t) (y 0)) (y 1)
    = value _ (rows (m ((c : Thread nD τ).loc main_arg0)) (m ((c : Thread nD τ).loc main_arg1)) ((((cfg0.win 13).blk t).view.emb y) 0)) ((((cfg0.win 13).blk t).view.emb y) 1)
  refine value_congr _ _ _ _ _ _ _ _ _ _ (params_blk m c t) (Fin.ext ?_) (fun a k => ?_) (fun a k => ?_)
  · show (y 1).val = win0_13.index t (1 : Fin 3) * 8 + 1 * (y 1).val
    rw [o1]; omega
  · show V m c main_arg0 (((cfg0.win 0).blk t).view.emb (ix3 (y 0) a k)) = _
    rw [V_main_arg0]
    refine congrArg (m ((c : Thread nD τ).loc main_arg0)) (funext fun ax => Fin.ext ?_)
    match ax with
    | ⟨0, _⟩ => show win0_0.index t (0 : Fin 3) * 256 + 1 * (y 0).val = win0_13.index t (0 : Fin 3) * 256 + 1 * (y 0).val; rw [a0, o0]
    | ⟨1, _⟩ => show win0_0.index t (1 : Fin 3) * 8 + 1 * a.val = a.val; rw [a1]; omega
    | ⟨2, _⟩ => show win0_0.index t (2 : Fin 3) * 128 + 1 * k.val = k.val; rw [a2]; omega
  · show V m c main_arg1 (((cfg0.win 1).blk t).view.emb (ix3 (y 0) a k)) = _
    rw [V_main_arg1]
    refine congrArg (m ((c : Thread nD τ).loc main_arg1)) (funext fun ax => Fin.ext ?_)
    match ax with
    | ⟨0, _⟩ => show win0_1.index t (0 : Fin 3) * 256 + 1 * (y 0).val = win0_13.index t (0 : Fin 3) * 256 + 1 * (y 0).val; rw [b0, o0]
    | ⟨1, _⟩ => show win0_1.index t (1 : Fin 3) * 8 + 1 * a.val = a.val; rw [b1]; omega
    | ⟨2, _⟩ => show win0_1.index t (2 : Fin 3) * 16 + 1 * k.val = k.val; rw [b2]; omega

/-- An index of the result array is in point t's block iff each coordinate is in the block's range on its axis. -/
theorem mem_blk (t : Fin cfg0.N) (i : S65536x8x1.Idx) :
    i ∈ ((cfg0.win 13).blk t).view.set ↔ ∀ a : Fin 3, win0_13.index t a * S256x8x1.size a ≤ (i a).val
      ∧ (i a).val < win0_13.index t a * S256x8x1.size a + S256x8x1.size a := by
  show i ∈ ((View.whole main_v2).slice (win0_13.rect t)).set ↔ _
  rw [View.set_slice_whole, Rect.mem_set_unit]
  exact Iff.rfl

/-- Every index of the result array is in some point's block: batch b is in the block of point b / 256. -/
theorem cover (i : S65536x8x1.Idx) :
    ∃ t : Fin cfg0.N, (cfg0.win 13).flush t = true ∧ i ∈ ((cfg0.win 13).blk t).view.set := by
  have h0 : (i 0).val < 65536 := (i 0).isLt
  have h1 : (i 1).val < 8 := (i 1).isLt
  have h2 : (i 2).val < 1 := (i 2).isLt
  have hN : (i 0).val / 256 < cfg0.N := by rw [show cfg0.N = 256 from N_0]; omega
  refine ⟨⟨(i 0).val / 256, hN⟩, flush0_13 _, ?_⟩
  obtain ⟨o0, o1, o2⟩ := idx13 ⟨(i 0).val / 256, hN⟩
  rw [mem_blk]
  intro a
  match a with
  | ⟨0, _⟩ =>
    show win0_13.index ⟨(i 0).val / 256, hN⟩ (0 : Fin 3) * 256 ≤ (i 0).val
      ∧ (i 0).val < win0_13.index ⟨(i 0).val / 256, hN⟩ (0 : Fin 3) * 256 + 256
    rw [o0]; show (i 0).val / 256 * 256 ≤ (i 0).val ∧ (i 0).val < (i 0).val / 256 * 256 + 256; omega
  | ⟨1, _⟩ =>
    show win0_13.index ⟨(i 0).val / 256, hN⟩ (1 : Fin 3) * 8 ≤ (i 1).val
      ∧ (i 1).val < win0_13.index ⟨(i 0).val / 256, hN⟩ (1 : Fin 3) * 8 + 8
    rw [o1]; omega
  | ⟨2, _⟩ =>
    show win0_13.index ⟨(i 0).val / 256, hN⟩ (2 : Fin 3) * 1 ≤ (i 2).val
      ∧ (i 2).val < win0_13.index ⟨(i 0).val / 256, hN⟩ (2 : Fin 3) * 1 + 1
    rw [o2]; omega

/-- THE ARRAY after the run is the specification's result array of the arguments. -/
theorem final (c : Dev nD) : (dats m 0 c).arrAt 13 cfg0.N = result m c :=
  (dats m 0 c).arrAt_eq_of_cover 13 (result m c) (fun t _ => flushed_eq m c t) (cover)

/-- The kernel's run: the result array at the specification, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩)
    (Cert.KernelIdeal.Value.run_blocks m ρ)

end Cert.Critic.Kern

end
-- ==== Proof.RefValue.lean ====
/-
  The reference program computes the critic's value array: stage by stage, each of its intermediate arrays read at an
  index is the corresponding term of the specification. Rows of the flattened [524288, ·] arrays are (batch, agent)
  pairs: row r is agent r % 8 of batch r / 8.
-/
import proofs.«113104_j16681652977907_1_alg».proof.Proof.RefReadP
import proofs.«113104_j16681652977907_1_alg».proof.Proof.Spec

set_option maxHeartbeats 1000000

noncomputable section

namespace Cert.Critic.Ref

open Cert.ReferenceIdeal Cert.ReferenceIdeal.ReadP Idealize.ShloMosaic Idealize.ShloMosaic.ValueIdx Cert.Critic

/-- The batch and the agent of a flattened row. -/
def rb (r : Fin 524288) : Fin 65536 := ⟨r.val / 8, by have := r.isLt; omega⟩
def ra (r : Fin 524288) : Fin 8 := ⟨r.val % 8, Nat.mod_lt _ (by norm_num)⟩

variable (x0 : (⟨S65536x8x128, .f32⟩ : BufTy).Contents (Elt Ideal)) (x1 : (⟨S65536x8x16, .f32⟩ : BufTy).Contents (Elt Ideal))
  (x2 : (⟨S144x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x192, .f32⟩ : BufTy).Contents (Elt Ideal)) (x7 : (⟨S192, .f32⟩ : BufTy).Contents (Elt Ideal))
  (x8 : (⟨S64x192, .f32⟩ : BufTy).Contents (Elt Ideal)) (x9 : (⟨S192, .f32⟩ : BufTy).Contents (Elt Ideal))
  (x10 : (⟨S64x1, .f32⟩ : BufTy).Contents (Elt Ideal)) (x11 : (⟨S1, .f32⟩ : BufTy).Contents (Elt Ideal))

/-- The joined and flattened input: row r, column k is agent r % 8 of batch r / 8 at joined position k. -/
theorem ref_v1 (i : S524288x144.Idx) :
    val_main_v1 (F := Ideal) x0 x1 i = rows x0 x1 (rb (i 0)) (ra (i 0)) (i 1) := by
  have h0 : (i 0).val < 524288 := (i 0).isLt
  have h1 : (i 1).val < 144 := (i 1).isLt
  rw [val_main_v1_apply]
  unfold val_main_v0 rows cat
  by_cases h : (i 1).val < 128
  · rw [dif_pos h]
    refine concatenate_pair_apply_left (2 : Fin 3) x0 x1 _ (idx_main_v1 i) rfl
      (ix3 (rb (i 0)) (ra (i 0)) ⟨(i 1).val, h⟩) (fun b => ?_)
    match b with
    | ⟨0, _⟩ => show (i 0).val / 8 = ((i 0).val * 144 + (i 1).val) / 1152; omega
    | ⟨1, _⟩ => show (i 0).val % 8 = ((i 0).val * 144 + (i 1).val) / 144 % 8; omega
    | ⟨2, _⟩ => show (i 1).val = ((i 0).val * 144 + (i 1).val) % 144; omega
  · rw [dif_neg h]
    refine concatenate_pair_apply_right (2 : Fin 3) x0 x1 _ (idx_main_v1 i) rfl rfl
      (ix3 (rb (i 0)) (ra (i 0)) ⟨(i 1).val - 128, by omega⟩) (fun b hb => ?_) ?_
    · match b with
      | ⟨0, _⟩ => show (i 0).val / 8 = ((i 0).val * 144 + (i 1).val) / 1152; omega
      | ⟨1, _⟩ => show (i 0).val % 8 = ((i 0).val * 144 + (i 1).val) / 144 % 8; omega
      | ⟨2, _⟩ => exact absurd rfl hb
    · show (i 1).val - 128 + 128 = ((i 0).val * 144 + (i 1).val) % 144; omega

/-- The encoder's pre-activation. -/
theorem ref_v5 (i : S524288x64.Idx) :
    val_main_v5 (F := Ideal) x0 x1 x2 x3 i = dense (rows x0 x1 (rb (i 0)) (ra (i 0))) (mat x2) (vec x3) (i 1) := by
  rw [val_main_v5_apply, val_main_v2_apply, val_main_v4_apply, val_main_v3_apply]
  simp only [ref_v1]
  have e1 : ∀ k, ridx_main_v2 i k = ix2 k (i 1) := fun k => ix2_of _ _ _ rfl rfl
  have e2 : idx_main_v3 (idx_main_v4 i) = ix1 (i 1) := ix1_of _ _ rfl
  simp only [e1, e2]
  rfl

/-- Encoder then observation layer: h0. -/
theorem ref_v10 (i : S524288x64.Idx) :
    val_main_v10 (F := Ideal) x0 x1 x2 x3 x4 x5 i = hidden0 (params x2 x3 x4 x5 x6 x7 x8 x9 x10 x11) (rows x0 x1 (rb (i 0)) (ra (i 0))) (i 1) := by
  rw [val_main_v10_apply, val_main_v7_apply, val_main_v9_apply, val_main_v8_apply]
  simp only [val_main_v6_apply, val_main_call0_v0_apply, val_main_call0_cst_apply, ref_v5]
  have e1 : ∀ k, ridx_main_v7 i k = ix2 k (i 1) := fun k => ix2_of _ _ _ rfl rfl
  have e2 : idx_main_v8 (idx_main_v9 i) = ix1 (i 1) := ix1_of _ _ rfl
  simp only [e1, e2]
  rfl

/-- The first cell's input gates: a zero context through Wi. -/
theorem ref_v15 (i : S524288x192.Idx) :
    val_main_v15 (F := Ideal) x6 x7 i = dense (fun _ => zero) (mat x6) (vec x7) (i 1) := by
  rw [val_main_v15_apply, val_main_v12_apply, val_main_v14_apply, val_main_v13_apply]
  simp only [val_main_v11_apply, val_main_cst_apply]
  have e1 : ∀ k, ridx_main_v12 i k = ix2 k (i 1) := fun k => ix2_of _ _ _ rfl rfl
  have e2 : idx_main_v13 (idx_main_v14 i) = ix1 (i 1) := ix1_of _ _ rfl
  simp only [e1, e2]
  rfl

/-- The first cell's state gates: h0 through Wh. -/
theorem ref_v19 (i : S524288x192.Idx) :
    val_main_v19 (F := Ideal) x0 x1 x2 x3 x4 x5 x8 x9 i = dense (hidden0 (params x2 x3 x4 x5 x6 x7 x8 x9 x10 x11) (rows x0 x1 (rb (i 0)) (ra (i 0)))) (mat x8) (vec x9) (i 1) := by
  rw [val_main_v19_apply, val_main_v16_apply, val_main_v18_apply, val_main_v17_apply]
  simp only [(ref_v10 x0 x1 x2 x3 x4 x5 x6 x7 x8 x9 x10 x11)]
  have e1 : ∀ k, ridx_main_v16 i k = ix2 k (i 1) := fun k => ix2_of _ _ _ rfl rfl
  have e2 : idx_main_v17 (idx_main_v18 i) = ix1 (i 1) := ix1_of _ _ rfl
  simp only [e1, e2]
  rfl

/-- h1: the GRU cell on a zero context. -/
theorem ref_v47 (i : S524288x64.Idx) :
    val_main_v47 (F := Ideal) x0 x1 x2 x3 x4 x5 x6 x7 x8 x9 i = hidden1 (params x2 x3 x4 x5 x6 x7 x8 x9 x10 x11) (rows x0 x1 (rb (i 0)) (ra (i 0))) (i 1) := by
  simp only [val_main_v47_apply, val_main_v45_apply, val_main_v46_apply, val_main_v44_apply, val_main_v43_apply, val_main_cst_4_apply, val_main_v42_apply, val_main_v41_apply, val_main_v40_apply, val_main_v39_apply, val_main_v38_apply, val_main_cst_3_apply, val_main_v37_apply, val_main_v36_apply, val_main_cst_2_apply, val_main_v35_apply, val_main_v34_apply, val_main_v33_apply, val_main_v32_apply, val_main_v31_apply, val_main_cst_1_apply, val_main_v30_apply, val_main_v29_apply, val_main_cst_0_apply, val_main_v28_apply, val_main_v27_apply, val_main_v26_apply, val_main_v25_apply, val_main_v24_apply, val_main_v23_apply, val_main_v22_apply, val_main_v21_apply, val_main_v20_apply,
    ref_v15, (ref_v19 x0 x1 x2 x3 x4 x5 x6 x7 x8 x9 x10 x11), (ref_v10 x0 x1 x2 x3 x4 x5 x6 x7 x8 x9 x10 x11)]
  simp only [Ideal.hostDivf_def, Ideal.addf_def, Ideal.subf_def, Ideal.mulf_def, Ideal.hostUnary_exp_def, Ideal.hostUnary_tanh_def, Ideal.hostNegf_def, Ideal.negf_def, Ideal.ofBits_def]
  simp only [logistic_spelled]
  rfl

/-- h1 in [batch, agent, feature] form. -/
theorem ref_v48 (i : S65536x8x64.Idx) :
    val_main_v48 (F := Ideal) x0 x1 x2 x3 x4 x5 x6 x7 x8 x9 i = hidden1 (params x2 x3 x4 x5 x6 x7 x8 x9 x10 x11) (rows x0 x1 (i 0) (i 1)) (i 2) := by
  have h0 : (i 0).val < 65536 := (i 0).isLt
  have h1 : (i 1).val < 8 := (i 1).isLt
  have h2 : (i 2).val < 64 := (i 2).isLt
  rw [val_main_v48_apply, (ref_v47 x0 x1 x2 x3 x4 x5 x6 x7 x8 x9 x10 x11)]
  have e0 : rb ((idx_main_v48 i) 0) = i 0 := Fin.ext (by
    show (((i 0).val * 8 + (i 1).val) * 64 + (i 2).val) / 64 / 8 = (i 0).val; omega)
  have e1 : ra ((idx_main_v48 i) 0) = i 1 := Fin.ext (by
    show (((i 0).val * 8 + (i 1).val) * 64 + (i 2).val) / 64 % 8 = (i 1).val; omega)
  have e2 : (idx_main_v48 i) 1 = i 2 := Fin.ext (by
    show (((i 0).val * 8 + (i 1).val) * 64 + (i 2).val) % 64 = (i 2).val; omega)
  rw [e0, e1, e2]

/-- The all-but-self mean: the reference's quotient by 8 is the product with 1/8. -/
theorem ref_v54 (i : S65536x8x64.Idx) :
    val_main_v54 (F := Ideal) x0 x1 x2 x3 x4 x5 x6 x7 x8 x9 i
      = context (fun a' => hidden1 (params x2 x3 x4 x5 x6 x7 x8 x9 x10 x11) (rows x0 x1 (i 0) a')) (i 1) (i 2) := by
  rw [val_main_v54_apply, val_main_v53_apply, val_main_cst_6_apply, val_main_v52_apply, val_main_v51_apply, val_main_v50_apply, val_main_v49_apply, val_main_cst_5_apply]
  simp only [(ref_v48 x0 x1 x2 x3 x4 x5 x6 x7 x8 x9 x10 x11)]
  simp only [Ideal.hostDivf_def, Ideal.subf_def, Ideal.ofBits_def]
  rw [div_eight, Ideal.ofBits_zero_f32, zero_add]
  rfl

/-- The context flattened back to rows. -/
theorem ref_v55 (i : S524288x64.Idx) :
    val_main_v55 (F := Ideal) x0 x1 x2 x3 x4 x5 x6 x7 x8 x9 i
      = context (fun a' => hidden1 (params x2 x3 x4 x5 x6 x7 x8 x9 x10 x11) (rows x0 x1 (rb (i 0)) a')) (ra (i 0)) (i 1) := by
  have h0 : (i 0).val < 524288 := (i 0).isLt
  have h1 : (i 1).val < 64 := (i 1).isLt
  rw [val_main_v55_apply, (ref_v54 x0 x1 x2 x3 x4 x5 x6 x7 x8 x9 x10 x11)]
  have e0 : (idx_main_v55 i) 0 = rb (i 0) := Fin.ext (by
    show ((i 0).val * 64 + (i 1).val) / 512 = (i 0).val / 8; omega)
  have e1 : (idx_main_v55 i) 1 = ra (i 0) := Fin.ext (by
    show ((i 0).val * 64 + (i 1).val) / 64 % 8 = (i 0).val % 8; omega)
  have e2 : (idx_main_v55 i) 2 = i 1 := Fin.ext (by
    show ((i 0).val * 64 + (i 1).val) % 64 = (i 1).val; omega)
  rw [e0, e1, e2]

/-- The second cell's input gates: the context through Wi. -/
theorem ref_v59 (i : S524288x192.Idx) :
    val_main_v59 (F := Ideal) x0 x1 x2 x3 x4 x5 x6 x7 x8 x9 i
      = dense (context (fun a' => hidden1 (params x2 x3 x4 x5 x6 x7 x8 x9 x10 x11) (rows x0 x1 (rb (i 0)) a')) (ra (i 0))) (mat x6) (vec x7) (i 1) := by
  rw [val_main_v59_apply, val_main_v56_apply, val_main_v58_apply, val_main_v57_apply]
  simp only [(ref_v55 x0 x1 x2 x3 x4 x5 x6 x7 x8 x9 x10 x11)]
  have e1 : ∀ k, ridx_main_v56 i k = ix2 k (i 1) := fun k => ix2_of _ _ _ rfl rfl
  have e2 : idx_main_v57 (idx_main_v58 i) = ix1 (i 1) := ix1_of _ _ rfl
  simp only [e1, e2]
  rfl

/-- The second cell's state gates: h1 through Wh. -/
theorem ref_v63 (i : S524288x192.Idx) :
    val_main_v63 (F := Ideal) x0 x1 x2 x3 x4 x5 x6 x7 x8 x9 i = dense (hidden1 (params x2 x3 x4 x5 x6 x7 x8 x9 x10 x11) (rows x0 x1 (rb (i 0)) (ra (i 0)))) (mat x8) (vec x9) (i 1) := by
  rw [val_main_v63_apply, val_main_v60_apply, val_main_v62_apply, val_main_v61_apply]
  simp only [(ref_v47 x0 x1 x2 x3 x4 x5 x6 x7 x8 x9 x10 x11)]
  have e1 : ∀ k, ridx_main_v60 i k = ix2 k (i 1) := fun k => ix2_of _ _ _ rfl rfl
  have e2 : idx_main_v61 (idx_main_v62 i) = ix1 (i 1) := ix1_of _ _ rfl
  simp only [e1, e2]
  rfl

/-- h2: the GRU cell on the context and h1. -/
theorem ref_v91 (i : S524288x64.Idx) :
    val_main_v91 (F := Ideal) x0 x1 x2 x3 x4 x5 x6 x7 x8 x9 i = hidden2 (params x2 x3 x4 x5 x6 x7 x8 x9 x10 x11) (rows x0 x1 (rb (i 0))) (ra (i 0)) (i 1) := by
  simp only [val_main_v91_apply, val_main_v89_apply, val_main_v90_apply, val_main_v88_apply, val_main_v87_apply, val_main_cst_11_apply, val_main_v86_apply, val_main_v85_apply, val_main_v84_apply, val_main_v83_apply, val_main_v82_apply, val_main_cst_10_apply, val_main_v81_apply, val_main_v80_apply, val_main_cst_9_apply, val_main_v79_apply, val_main_v78_apply, val_main_v77_apply, val_main_v76_apply, val_main_v75_apply, val_main_cst_8_apply, val_main_v74_apply, val_main_v73_apply, val_main_cst_7_apply, val_main_v72_apply, val_main_v71_apply, val_main_v70_apply, val_main_v69_apply, val_main_v68_apply, val_main_v67_apply, val_main_v66_apply, val_main_v65_apply, val_main_v64_apply,
    (ref_v59 x0 x1 x2 x3 x4 x5 x6 x7 x8 x9 x10 x11), (ref_v63 x0 x1 x2 x3 x4 x5 x6 x7 x8 x9 x10 x11), (ref_v47 x0 x1 x2 x3 x4 x5 x6 x7 x8 x9 x10 x11)]
  simp only [Ideal.hostDivf_def, Ideal.addf_def, Ideal.subf_def, Ideal.mulf_def, Ideal.hostUnary_exp_def, Ideal.hostUnary_tanh_def, Ideal.hostNegf_def, Ideal.negf_def, Ideal.ofBits_def]
  simp only [logistic_spelled]
  rfl

/-- The decoder, row by row. -/
theorem ref_v95 (i : S524288x1.Idx) :
    val_main_v95 (F := Ideal) x0 x1 x2 x3 x4 x5 x6 x7 x8 x9 x10 x11 i
      = dense (hidden2 (params x2 x3 x4 x5 x6 x7 x8 x9 x10 x11) (rows x0 x1 (rb (i 0))) (ra (i 0))) (mat x10) (vec x11) (i 1) := by
  rw [val_main_v95_apply, val_main_v92_apply, val_main_v94_apply, val_main_v93_apply]
  simp only [(ref_v91 x0 x1 x2 x3 x4 x5 x6 x7 x8 x9 x10 x11)]
  have e1 : ∀ k, ridx_main_v92 i k = ix2 k (i 1) := fun k => ix2_of _ _ _ rfl rfl
  have e2 : idx_main_v93 (idx_main_v94 i) = ix1 (i 1) :=
    ix1_of _ _ (by have h : (i 1).val < 1 := (i 1).isLt; show 0 = (i 1).val; omega)
  simp only [e1, e2]
  rfl

/-- The reference's result array is the specification's. -/
theorem ref_eq : val_main_v96 (F := Ideal) x0 x1 x2 x3 x4 x5 x6 x7 x8 x9 x10 x11 = G x0 x1 (params x2 x3 x4 x5 x6 x7 x8 x9 x10 x11) := by
  funext i
  have h0 : (i 0).val < 65536 := (i 0).isLt
  have h1 : (i 1).val < 8 := (i 1).isLt
  have h2 : (i 2).val < 1 := (i 2).isLt
  rw [val_main_v96_apply, (ref_v95 x0 x1 x2 x3 x4 x5 x6 x7 x8 x9 x10 x11)]
  have e0 : rb ((idx_main_v96 i) 0) = i 0 := Fin.ext (by
    show (((i 0).val * 8 + (i 1).val) * 1 + (i 2).val) / 1 / 8 = (i 0).val; omega)
  have e1 : ra ((idx_main_v96 i) 0) = i 1 := Fin.ext (by
    show (((i 0).val * 8 + (i 1).val) * 1 + (i 2).val) / 1 % 8 = (i 1).val; omega)
  rw [e0, e1]
  rfl

end Cert.Critic.Ref

end
-- ==== Proof.lean ====
/-
  The kernel and its reference compute one function at the ideal values: a multi-agent critic. Each of 65536 batches
  holds 8 agents; an agent's 128 observation and 16 action features go through an encoder (a dense layer and a maximum
  with zero), an observation layer, a GRU cell on a zero context, then a GRU cell whose context is the mean over the
  batch's OTHER agents' states divided by the agent count, and a decoder to one value.

  Three laws join the two programs' spellings, none of which needs finiteness of the inputs:
  the kernel multiplies the observation and the action features by the two row slices of the encoder's weights and adds
  the products, where the reference multiplies the joined row by the whole matrix — a sum over 144 positions split as
  128 + 16 (Proof/Spec.lean, sum_cat); the kernel's sigmoid is the reference's 1 / (1 + exp(-x)) (logistic_spelled);
  the kernel's product with the word 0.125 is the reference's quotient by 8.0 on every extended real (div_eight).
  Rounding to bfloat16 before each matrix product is the identity at the ideal values, and a product accumulated block by
  block over the grid's 256 points is the whole product, since every row's result depends on its own batch only.

  Proof/Spec.lean states the function; Proof/RefValue.lean shows the reference's result array is it; Proof/KernelOps.lean,
  Proof/KernelPay.lean and Proof/KernelArr.lean show the kernel's is: the body's operations at an index, the stored block
  as the function of the block's inputs, and the 256 blocks covering the array. The three frames are the generated ones;
  the idealization rewrote nothing, so preserves is trivial.
-/
import proofs.«113104_j16681652977907_1_alg».proof.Defs
import proofs.«113104_j16681652977907_1_alg».proof.Proof.Gen.Kernel
import proofs.«113104_j16681652977907_1_alg».proof.Proof.Gen.Kernel.Frame
import proofs.«113104_j16681652977907_1_alg».proof.Proof.Gen.KernelIdeal
import proofs.«113104_j16681652977907_1_alg».proof.Proof.Gen.KernelIdeal.Frame
import proofs.«113104_j16681652977907_1_alg».proof.Proof.Gen.ReferenceIdeal
import proofs.«113104_j16681652977907_1_alg».proof.Proof.Gen.Pre_finite_inputs
import proofs.«113104_j16681652977907_1_alg».proof.Proof.KernelArr
import proofs.«113104_j16681652977907_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the specification's result array of arguments that agree. -/
theorem algebraic : Cert.algebraic_KernelIdeal_ReferenceIdeal := by
  intro m ρ m' ρ' _ hagree
  refine ⟨fun c => Cert.Critic.Kern.result m c, Cert.Critic.Kern.run m ρ, ?_⟩
  refine (θ_run Cert.ReferenceIdeal.defs _ _).mono (fun _ h c => ⟨?_, (h c).2⟩)
    (Cert.ReferenceIdeal.ValueP.run (F := Ideal) m' ρ')
  obtain ⟨e0, e1, e2, e3, e4, e5, e6, e7, e8, e9, e10, e11⟩ := hagree c
  rw [(h c).1, Cert.ReferenceIdeal.ReadP.val_main_v96_eq, Cert.Critic.Ref.ref_eq, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
